-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x800000 : Shape := ⟨2, ![2, 800000]⟩
abbrev S800000 : Shape := ⟨1, ![800000]⟩
abbrev S16x128 : Shape := ⟨2, ![16, 128]⟩
abbrev S128 : Shape := ⟨1, ![128]⟩
abbrev S2x128x128 : Shape := ⟨3, ![2, 128, 128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S3 .f32) (main_v33 : IVec S_ 1) : IVec S_ 1 :=
  let main_v34 : FVec F S3 .f32 := Host.absf main_arg9
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x3 .f32) (main_arg9 : FVec F S3 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x3 .f32 := Host.absf main_arg8
  let main_cst_10 : FVec F S_ .f32 := constant S_ .f32 0x7F800000#32
  let main_v30 : FVec F S128x3 .f32 := broadcastInDim S128x3 ![] bcast_S_S128x3 main_cst_10
  let main_v31 : IVec S128x3 1 := cmpf .olt main_v29 main_v30
  let main_c_11 : IVec S_ 1 := constantI S_ 1 1#1
  let main_v32 : IVec S_ 1 := (fun x v => Host.reduce IntOp.andi x v reducesTo_S128x3_S_d0_1 h_S_) main_v31 main_c_11
  let main_v33 : IVec S_ 1 := andi main_v28 main_v32
  fn_part2 (F := F) main_arg9 main_v33

def fn {F : FTy → Type} [FloatOps F] (main_arg0 : FVec F S100000x16 .f32) (main_arg1 : IVec S2x800000 32) (main_arg2 : IVec S800000 32) (main_arg3 : FVec F S16x128 .f32) (main_arg4 : FVec F S128 .f32) (main_arg5 : FVec F S2x128x128 .f32) (main_arg6 : FVec F S128x128 .f32) (main_arg7 : FVec F S128 .f32) (main_arg8 : FVec F S128x3 .f32) (main_arg9 : FVec F S3 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg3
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_v13 main_v16
-- ==== Kernel.lean ====
abbrev S100000x16 : Shape := ⟨2, ![100000, 16]⟩
abbrev S2x800000 : Shape := ⟨2, ![2, 800000]⟩
abbrev S800000 : Shape := ⟨1, ![800000]⟩
abbrev S16x128 : Shape := ⟨2, ![16, 128]⟩
abbrev S128 : Shape := ⟨1, ![128]⟩
abbrev S2x128x128 : Shape := ⟨3, ![2, 128, 128]⟩
abbrev S128x128 : Shape := ⟨2, ![128, 128]⟩
abbrev S128x3 : Shape := ⟨2, ![128, 3]⟩
abbrev S3 : Shape := ⟨1, ![3]⟩
abbrev S1x800000 : Shape := ⟨2, ![1, 800000]⟩
abbrev S1x128 : Shape := ⟨2, ![1, 128]⟩
abbrev S100000x128 : Shape := ⟨2, ![100000, 128]⟩
abbrev S2000x16 : Shape := ⟨2, ![2000, 16]⟩
abbrev S2000x128 : Shape := ⟨2, ![2000, 128]⟩
abbrev S1x128x128 : Shape := ⟨3, ![1, 128, 128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x3 : Shape := ⟨2, ![1, 3]⟩
abbrev S100000x3 : Shape := ⟨2, ![100000, 3]⟩
abbrev S2000x3 : Shape := ⟨2, ![2000, 3]⟩

abbrev nBuf : Space → Nat
  | .hbm => 140
  | .vmem => 36
  | .smem => 0
  | _ => 0

abbrev hbmTy0_0 (i : Nat) : BufTy := match i % 128 with
  | 0 => ⟨S100000x16, .f32⟩
  | 1 => ⟨S2x800000, .i32⟩
  | 2 => ⟨S800000, .i32⟩
  | 3 => ⟨S16x128, .f32⟩
  | 4 => ⟨S128, .f32⟩
  | 5 => ⟨S2x128x128, .f32⟩
  | 6 => ⟨S128x128, .f32⟩
  | 7 => ⟨S128, .f32⟩
  | 8 => ⟨S128x3, .f32⟩
  | 9 => ⟨S3, .f32⟩
  | 10 => ⟨S1x800000, .i32⟩
  | 11 => ⟨S800000, .i32⟩
  | 12 => ⟨S1x800000, .i32⟩
  | 13 => ⟨S800000, .i32⟩
  | 14 => ⟨S1x128, .f32⟩
  | 15 => ⟨S100000x128, .f32⟩
  | 16 => ⟨S1x128x128, .f32⟩
  | 17 => ⟨S128x128, .f32⟩
  | 18 => ⟨S1x128x128, .f32⟩
  | 19 => ⟨S128x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .i32⟩
  | 30 => ⟨S800000, .i32⟩
  | 31 => ⟨S800000, .i1⟩
  | 32 => ⟨S800000x1, .i1⟩
  | 33 => ⟨S_, .f32⟩
  | 34 => ⟨S_, .f32⟩
  | 35 => ⟨S800000x128, .i1⟩
  | 36 => ⟨S800000x128, .f32⟩
  | 37 => ⟨S800000x128, .f32⟩
  | 38 => ⟨S_, .f32⟩
  | 39 => ⟨S100000x128, .f32⟩
  | 40 => ⟨S800000x1, .i32⟩
  | 41 => ⟨S100000x128, .f32⟩
  | 42 => ⟨S800000, .f32⟩
  | 43 => ⟨S_, .f32⟩
  | 44 => ⟨S100000, .f32⟩
  | 45 => ⟨S800000x1, .i32⟩
  | 46 => ⟨S100000, .f32⟩
  | 47 => ⟨S_, .f32⟩
  | 48 => ⟨S100000, .f32⟩
  | 49 => ⟨S100000, .f32⟩
  | 50 => ⟨S100000x1, .f32⟩
  | 51 => ⟨S100000x128, .f32⟩
  | 52 => ⟨S100000x128, .f32⟩
  | 53 => ⟨S_, .i32⟩
  | 54 => ⟨S800000, .i32⟩
  | 55 => ⟨S800000, .i1⟩
  | 56 => ⟨S800000x1, .i1⟩
  | 57 => ⟨S_, .f32⟩
  | 58 => ⟨S_, .f32⟩
  | 59 => ⟨S800000x128, .i1⟩
  | 60 => ⟨S800000x128, .f32⟩
  | 61 => ⟨S800000x128, .f32⟩
  | 62 => ⟨S_, .f32⟩
  | 63 => ⟨S100000x128, .f32⟩
  | 64 => ⟨S800000x1, .i32⟩
  | 65 => ⟨S100000x128, .f32⟩
  | 66 => ⟨S800000, .f32⟩
  | 67 => ⟨S_, .f32⟩
  | 68 => ⟨S100000, .f32⟩
  | 69 => ⟨S800000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S1x128, .f32⟩
  | 78 => ⟨S100000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .i32⟩
  | 89 => ⟨S800000, .i32⟩
  | 90 => ⟨S800000, .i1⟩
  | 91 => ⟨S800000x1, .i1⟩
  | 92 => ⟨S_, .f32⟩
  | 93 => ⟨S_, .f32⟩
  | 94 => ⟨S800000x128, .i1⟩
  | 95 => ⟨S800000x128, .f32⟩
  | 96 => ⟨S800000x128, .f32⟩
  | 97 => ⟨S_, .f32⟩
  | 98 => ⟨S100000x128, .f32⟩
  | 99 => ⟨S800000x1, .i32⟩
  | 100 => ⟨S100000x128, .f32⟩
  | 101 => ⟨S800000, .f32⟩
  | 102 => ⟨S_, .f32⟩
  | 103 => ⟨S100000, .f32⟩
  | 104 => ⟨S800000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x128, .f32⟩
  | 111 => ⟨S100000x128, .f32⟩
  | 112 => ⟨S_, .i32⟩
  | 113 => ⟨S800000, .i32⟩
  | 114 => ⟨S800000, .i1⟩
  | 115 => ⟨S800000x1, .i1⟩
  | 116 => ⟨S_, .f32⟩
  | 117 => ⟨S_, .f32⟩
  | 118 => ⟨S800000x128, .i1⟩
  | 119 => ⟨S800000x128, .f32⟩
  | 120 => ⟨S800000x128, .f32⟩
  | 121 => ⟨S_, .f32⟩
  | 122 => ⟨S100000x128, .f32⟩
  | 123 => ⟨S800000x1, .i32⟩
  | 124 => ⟨S100000x128, .f32⟩
  | 125 => ⟨S800000, .f32⟩
  | 126 => ⟨S_, .f32⟩
  | 127 => ⟨S100000, .f32⟩
  | _ => ⟨S100000x16, .f32⟩

abbrev hbmTy0_1 (i : Nat) : BufTy := match i % 128 with
  | 0 => ⟨S800000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x128, .f32⟩
  | 7 => ⟨S100000x128, .f32⟩
  | 8 => ⟨S1x128, .f32⟩
  | 9 => ⟨S100000x128, .f32⟩
  | 10 => ⟨S1x3, .f32⟩
  | 11 => ⟨S100000x3, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S2000x16, .f32⟩
  | .local _ .vmem, ⟨1, _⟩ => ⟨S2000x16, .f32⟩
  | .local _ .vmem, ⟨2, _⟩ => ⟨S16x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x3, .f32⟩
  | .local _ .vmem, ⟨33, _⟩ => ⟨S1x3, .f32⟩
  | .local _ .vmem, ⟨34, _⟩ => ⟨S2000x3, .f32⟩
  | .local _ .vmem, ⟨35, _⟩ => ⟨S2000x3, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_15 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_17 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_18 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v77 : Ref sig .tc := ⟨.hbm, 120, rfl⟩
abbrev main_cst_19 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_20 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_21 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x3 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S2000x16_S2000x16_0_0 : ∀ a, (![0, 0] : Fin 2 → Nat) a + S2000x16.size a ≤ S2000x16.size a
  h_S2000x16 : 0 < S2000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S800000x128 : S_.BroadcastsInDim S800000x128 (![] : Fin 0 → Fin S800000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  dot_S2000x16_S16x128_S2000x128_1_0_0_1_n_n_wf : DotDims.WF S2000x16 S16x128 S2000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S2000x128_S128x128_S2000x128_1_0_0_1_n_n_wf : DotDims.WF S2000x128 S128x128 S2000x128 [1] [0] [0] [1] [] []
  dot_S2000x128_S128x3_S2000x3_1_0_0_1_n_n_wf : DotDims.WF S2000x128 S128x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S100000x16.size a
  hwx0_0 : ∀ i : grid0.Coords, EltTy.bits .f32 = 32 ∨ (Rect.block (s := S100000x16) S2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x3.size a ≤ S128x3.size a
  hwx3_1 : ∀ i : grid3.Coords, EltTy.bits .f32 = 32 ∨ (Rect.block (s := S128x3) S128x3.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x3.size a ≤ S1x3.size a
  hwx3_2 : ∀ i : grid3.Coords, EltTy.bits .f32 = 32 ∨ (Rect.block (s := S1x3) S1x3.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x3.size a ≤ S100000x3.size a
  hwx3_3 : ∀ i : grid3.Coords, EltTy.bits .f32 = 32 ∨ (Rect.block (s := S100000x3) S2000x3.size (cc3_transform_3 i) (hinb3_3 i)).WholeWords (EltTy.packing .f32)

variable [Facts₀]

def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf

abbrev win0_0 : Pipeline.Window sig grid0 :=
  Pipeline.Window.ofSpec (Memref.whole main_arg0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v50) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v89) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v90) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v91) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v91) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v92) S1x3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S2000x3.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x16 : Shape := ⟨2, ![100000, 16]⟩
abbrev S2x800000 : Shape := ⟨2, ![2, 800000]⟩
abbrev S800000 : Shape := ⟨1, ![800000]⟩
abbrev S16x128 : Shape := ⟨2, ![16, 128]⟩
abbrev S128 : Shape := ⟨1, ![128]⟩
abbrev S2x128x128 : Shape := ⟨3, ![2, 128, 128]⟩
abbrev S128x128 : Shape := ⟨2, ![128, 128]⟩
abbrev S128x3 : Shape := ⟨2, ![128, 3]⟩
abbrev S3 : Shape := ⟨1, ![3]⟩
abbrev S1x800000 : Shape := ⟨2, ![1, 800000]⟩
abbrev S100000x128 : Shape := ⟨2, ![100000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128x128 : Shape := ⟨3, ![1, 128, 128]⟩
abbrev S100000x3 : Shape := ⟨2, ![100000, 3]⟩
abbrev S1x3 : Shape := ⟨2, ![1, 3]⟩

abbrev nBuf : Space → Nat
  | .hbm => 168
  | .vmem => 0
  | .smem => 0
  | _ => 0

abbrev hbmTy0_0 (i : Nat) : BufTy := match i % 128 with
  | 0 => ⟨S100000x16, .f32⟩
  | 1 => ⟨S2x800000, .i32⟩
  | 2 => ⟨S800000, .i32⟩
  | 3 => ⟨S16x128, .f32⟩
  | 4 => ⟨S128, .f32⟩
  | 5 => ⟨S2x128x128, .f32⟩
  | 6 => ⟨S128x128, .f32⟩
  | 7 => ⟨S128, .f32⟩
  | 8 => ⟨S128x3, .f32⟩
  | 9 => ⟨S3, .f32⟩
  | 10 => ⟨S1x800000, .i32⟩
  | 11 => ⟨S800000, .i32⟩
  | 12 => ⟨S1x800000, .i32⟩
  | 13 => ⟨S800000, .i32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S_, .f32⟩
  | 20 => ⟨S100000x128, .f32⟩
  | 21 => ⟨S100000x128, .i1⟩
  | 22 => ⟨S_, .f32⟩
  | 23 => ⟨S100000x128, .f32⟩
  | 24 => ⟨S100000x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S_, .i32⟩
  | 40 => ⟨S800000, .i32⟩
  | 41 => ⟨S800000, .i1⟩
  | 42 => ⟨S800000x1, .i1⟩
  | 43 => ⟨S_, .f32⟩
  | 44 => ⟨S_, .f32⟩
  | 45 => ⟨S800000x128, .i1⟩
  | 46 => ⟨S800000x128, .f32⟩
  | 47 => ⟨S800000x128, .f32⟩
  | 48 => ⟨S_, .f32⟩
  | 49 => ⟨S100000x128, .f32⟩
  | 50 => ⟨S800000x1, .i32⟩
  | 51 => ⟨S100000x128, .f32⟩
  | 52 => ⟨S800000, .f32⟩
  | 53 => ⟨S_, .f32⟩
  | 54 => ⟨S100000, .f32⟩
  | 55 => ⟨S800000x1, .i32⟩
  | 56 => ⟨S100000, .f32⟩
  | 57 => ⟨S_, .f32⟩
  | 58 => ⟨S100000, .f32⟩
  | 59 => ⟨S100000, .f32⟩
  | 60 => ⟨S100000x1, .f32⟩
  | 61 => ⟨S100000x128, .f32⟩
  | 62 => ⟨S100000x128, .f32⟩
  | 63 => ⟨S1x128x128, .f32⟩
  | 64 => ⟨S128x128, .f32⟩
  | 65 => ⟨S100000x128, .f32⟩
  | 66 => ⟨S100000x128, .f32⟩
  | 67 => ⟨S_, .i32⟩
  | 68 => ⟨S800000, .i32⟩
  | 69 => ⟨S800000, .i1⟩
  | 70 => ⟨S800000x1, .i1⟩
  | 71 => ⟨S_, .f32⟩
  | 72 => ⟨S_, .f32⟩
  | 73 => ⟨S800000x128, .i1⟩
  | 74 => ⟨S800000x128, .f32⟩
  | 75 => ⟨S800000x128, .f32⟩
  | 76 => ⟨S_, .f32⟩
  | 77 => ⟨S100000x128, .f32⟩
  | 78 => ⟨S800000x1, .i32⟩
  | 79 => ⟨S100000x128, .f32⟩
  | 80 => ⟨S800000, .f32⟩
  | 81 => ⟨S_, .f32⟩
  | 82 => ⟨S100000, .f32⟩
  | 83 => ⟨S800000x1, .i32⟩
  | 84 => ⟨S100000, .f32⟩
  | 85 => ⟨S_, .f32⟩
  | 86 => ⟨S100000, .f32⟩
  | 87 => ⟨S100000, .f32⟩
  | 88 => ⟨S100000x1, .f32⟩
  | 89 => ⟨S100000x128, .f32⟩
  | 90 => ⟨S100000x128, .f32⟩
  | 91 => ⟨S1x128x128, .f32⟩
  | 92 => ⟨S128x128, .f32⟩
  | 93 => ⟨S100000x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S_, .i32⟩
  | 109 => ⟨S800000, .i32⟩
  | 110 => ⟨S800000, .i1⟩
  | 111 => ⟨S800000x1, .i1⟩
  | 112 => ⟨S_, .f32⟩
  | 113 => ⟨S_, .f32⟩
  | 114 => ⟨S800000x128, .i1⟩
  | 115 => ⟨S800000x128, .f32⟩
  | 116 => ⟨S800000x128, .f32⟩
  | 117 => ⟨S_, .f32⟩
  | 118 => ⟨S100000x128, .f32⟩
  | 119 => ⟨S800000x1, .i32⟩
  | 120 => ⟨S100000x128, .f32⟩
  | 121 => ⟨S800000, .f32⟩
  | 122 => ⟨S_, .f32⟩
  | 123 => ⟨S100000, .f32⟩
  | 124 => ⟨S800000x1, .i32⟩
  | 125 => ⟨S100000, .f32⟩
  | 126 => ⟨S_, .f32⟩
  | 127 => ⟨S100000, .f32⟩
  | _ => ⟨S100000x16, .f32⟩

abbrev hbmTy0_1 (i : Nat) : BufTy := match i % 128 with
  | 0 => ⟨S100000, .f32⟩
  | 1 => ⟨S100000x1, .f32⟩
  | 2 => ⟨S100000x128, .f32⟩
  | 3 => ⟨S100000x128, .f32⟩
  | 4 => ⟨S1x128x128, .f32⟩
  | 5 => ⟨S128x128, .f32⟩
  | 6 => ⟨S100000x128, .f32⟩
  | 7 => ⟨S100000x128, .f32⟩
  | 8 => ⟨S_, .i32⟩
  | 9 => ⟨S800000, .i32⟩
  | 10 => ⟨S800000, .i1⟩
  | 11 => ⟨S800000x1, .i1⟩
  | 12 => ⟨S_, .f32⟩
  | 13 => ⟨S_, .f32⟩
  | 14 => ⟨S800000x128, .i1⟩
  | 15 => ⟨S800000x128, .f32⟩
  | 16 => ⟨S800000x128, .f32⟩
  | 17 => ⟨S_, .f32⟩
  | 18 => ⟨S100000x128, .f32⟩
  | 19 => ⟨S800000x1, .i32⟩
  | 20 => ⟨S100000x128, .f32⟩
  | 21 => ⟨S800000, .f32⟩
  | 22 => ⟨S_, .f32⟩
  | 23 => ⟨S100000, .f32⟩
  | 24 => ⟨S800000x1, .i32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x128, .f32⟩
  | 31 => ⟨S100000x128, .f32⟩
  | 32 => ⟨S1x128x128, .f32⟩
  | 33 => ⟨S128x128, .f32⟩
  | 34 => ⟨S100000x128, .f32⟩
  | 35 => ⟨S100000x128, .f32⟩
  | 36 => ⟨S100000x3, .f32⟩
  | 37 => ⟨S1x3, .f32⟩
  | 38 => ⟨S100000x3, .f32⟩
  | 39 => ⟨S100000x3, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v43 : Ref sig .tc := ⟨.hbm, 75, rfl⟩
abbrev main_cst_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_9 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_10 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_11 : Ref sig .tc := ⟨.hbm, 99, rfl⟩
abbrev main_v64 : Ref sig .tc := ⟨.hbm, 100, rfl⟩
abbrev main_v65 : Ref sig .tc := ⟨.hbm, 101, rfl⟩
abbrev main_c_12 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_13 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_14 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v74 : Ref sig .tc := ⟨.hbm, 116, rfl⟩
abbrev main_cst_15 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_16 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_17 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_18 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_19 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_v94 : Ref sig .tc := ⟨.hbm, 144, rfl⟩
abbrev main_cst_20 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_21 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_22 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S800000x128 : S_.BroadcastsInDim S800000x128 (![] : Fin 0 → Fin S800000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x16_S16x128_S100000x128_1_0_0_1_n_n_wf : DotDims.WF S100000x16 S16x128 S100000x128 [1] [0] [0] [1] [] []
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x3_S100000x3_1_0_0_1_n_n_wf : DotDims.WF S100000x128 S128x3 S100000x3 [1] [0] [0] [1] [] []

variable [Facts₀]

def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.KernelRun.lean ====
/-
  The kernel program's run, with its result named.

  Every weakly fair execution of the kernel program from a memory `m` terminates without a fault; at the end
  the ten argument arrays hold what they held at the start, and the result array holds the last entry of the
  chain of buffer contents that follows the program through its host stretches and its four launches
  (`W16`): each launch leaves its output array at what its grid points wrote back, and every other buffer as it
  was.  The argument is the launch of the program's segments one after another; the only thing read off the final
  state beyond the arguments is the result array, which no later segment touches.
-/
import proofs.«120295_j19387482374387_1_alg».proof.Proof.Gen.KernelIdeal.Frame

set_option maxRecDepth 16384

noncomputable section

namespace Cert.Rgcn.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The run of the kernel program from `m`: it terminates, nothing faults, the result array ends at the last
    boundary's contents `W16` and the arguments end as they started. -/
theorem run_result : θ_run defs (onTc (τ := τ) (main (F := F))) ⟨m, fun _ => 0, ρ⟩ (fun r => ∀ c : Dev nD,
      r.2.mem ((c.tc : Thread nD τ).loc main_v93) = W16 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v93 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.Rgcn.Kernel

end
-- ==== Proof.Spec.lean ====
/-
  What the network computes, as functions of whole arrays over the extended reals.

  A dense layer is a row of its input against a column of its weight matrix, summed over the shared axis,
  plus the bias entry of that column.  The input layer passes this through the leaky rectifier; the
  relational graph layer adds three such products — the node's own row against the root weights, and, per
  relation, the mean over the incoming edges of that relation of the source nodes' rows against that
  relation's weights — and the bias; the output layer is one dense layer.

  The means over incoming edges are carried as ONE function of the node array and the edge lists
  (`relMean`): both programs apply the very same chain of host operations there, and nothing in the
  argument depends on what that chain computes.
-/
import proofs.«120295_j19387482374387_1_alg».proof.Proof.Gen.KernelIdeal
import Idealize.ShloMosaic.PureOps.Ideal
import Idealize.ShloMosaic.Lib.ValueIdx

noncomputable section

namespace Cert.Rgcn

open Idealize.ShloMosaic Idealize.ShloMosaic.ValueIdx Cert.KernelIdeal Cert.KernelIdeal.Facts₀

/-! ## Dense layers -/

/-- Row `r` of `x` against column `q` of `w`: the sum over the shared axis of the products. -/
def rowDot {N K M : Nat} (x : (⟨2, ![N, K]⟩ : Shape).Idx → EReal) (w : (⟨2, ![K, M]⟩ : Shape).Idx → EReal)
    (r : Fin N) (q : Fin M) : EReal :=
  ∑ k : Fin K, x (ix2 r k) * w (ix2 k q)

/-- The slope of the leaky rectifier on the negative side: the single-precision number nearest 0.01,
    as the real it denotes. -/
def slope : EReal := Ideal.ofBits .f32 0x3C23D70A#32

/-- The leaky rectifier: `y` itself from zero upwards, `slope · y` below zero. -/
def leaky (y : EReal) : EReal := if 0 ≤ y then y else slope * y

/-- A bias vector laid out as the one-row matrix a dense layer adds to every row. -/
def biasRow {M : Nat} (b : (⟨1, ![M]⟩ : Shape).Idx → EReal) : (⟨2, ![1, M]⟩ : Shape).Idx → EReal :=
  fun j => b (ix1 (j 1))

/-- The input layer: `leaky (feat · w + b)`, entry by entry. -/
def inputLayer (feat : FVec Ideal S100000x16 .f32) (w : FVec Ideal S16x128 .f32) (brow : FVec Ideal S1x128 .f32) :
    FVec Ideal S100000x128 .f32 :=
  fun i => leaky (rowDot (N := 100000) (K := 16) (M := 128) feat w (i 0) (i 1) + brow (ix2 (n0 := 1) (n1 := 128) 0 (i 1)))

/-- One relational graph layer given the two per-relation means: the three products summed in the order
    root, relation 0, relation 1, then the bias. -/
def combineLayer (x m0 m1 : FVec Ideal S100000x128 .f32) (wroot w0 w1 : FVec Ideal S128x128 .f32)
    (brow : FVec Ideal S1x128 .f32) : FVec Ideal S100000x128 .f32 :=
  fun i => ((rowDot (N := 100000) (K := 128) (M := 128) x wroot (i 0) (i 1)
            + rowDot (N := 100000) (K := 128) (M := 128) m0 w0 (i 0) (i 1))
            + rowDot (N := 100000) (K := 128) (M := 128) m1 w1 (i 0) (i 1))
            + brow (ix2 (n0 := 1) (n1 := 128) 0 (i 1))

/-- The output layer: `x · w + b`, entry by entry. -/
def outputLayer (x : FVec Ideal S100000x128 .f32) (w : FVec Ideal S128x3 .f32) (brow : FVec Ideal S1x3 .f32) :
    FVec Ideal S100000x3 .f32 :=
  fun i => rowDot (N := 100000) (K := 128) (M := 3) x w (i 0) (i 1) + brow (ix2 (n0 := 1) (n1 := 3) 0 (i 1))

/-! ## The edge lists, the per-relation weights and the per-relation means: host operations, never opened -/

/-- Row `r` of the 2 × E edge list as a vector: the sources (`r = 0`) or the destinations (`r = 1`). -/
def edgeEnds0 (index : IVec S2x800000 32) : IVec S800000 32 :=
  shapeCast S800000 (extractStridedSlice S1x800000 ![0, 0] index slices_S2x800000_S1x800000_0_0) shapeCasts_S1x800000_S800000
def edgeEnds1 (index : IVec S2x800000 32) : IVec S800000 32 :=
  shapeCast S800000 (extractStridedSlice S1x800000 ![1, 0] index slices_S2x800000_S1x800000_1_0) shapeCasts_S1x800000_S800000

/-- Relation `r`'s weight matrix out of the stacked relation weights. -/
def relWeight0 (wrel : FVec Ideal S2x128x128 .f32) : FVec Ideal S128x128 .f32 :=
  shapeCast S128x128 (extractStridedSlice S1x128x128 ![0, 0, 0] wrel slices_S2x128x128_S1x128x128_0_0_0) shapeCasts_S1x128x128_S128x128
def relWeight1 (wrel : FVec Ideal S2x128x128 .f32) : FVec Ideal S128x128 .f32 :=
  shapeCast S128x128 (extractStridedSlice S1x128x128 ![1, 0, 0] wrel slices_S2x128x128_S1x128x128_1_0_0) shapeCasts_S1x128x128_S128x128

/-- The source list with negative entries wrapped round by the number of nodes, as a column of row indices. -/
def srcColumn (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 100000#32))) src)

/-- The rows of `x` at the edges' sources: one row per edge. -/
def gatherRows (x : FVec Ideal S100000x128 .f32) (src : IVec S800000 32) : FVec Ideal S800000x128 .f32 :=
  Host.gather gather_S100000x128_S800000x1_S800000x128_1_0_n_n_0_1_1128 x (srcColumn src)

/-- Which edges carry relation `r`. -/
def relMask (r : BitVec 32) (etype : IVec S800000 32) : IVec S800000 1 :=
  cmpi .eq etype (broadcastInDim S800000 ![] bcast_S_S800000 (constantI S_ 32 r))

/-- The mean, over the edges of relation `r` that enter each node, of the gathered source rows `xs`: the masked
    rows summed into their destination nodes, divided by the larger of the edge count and one. -/
def relMeanOf (r : BitVec 32) (xs : FVec Ideal S800000x128 .f32) (dst etype : IVec S800000 32) :
    FVec Ideal S100000x128 .f32 :=
  Host.divf (F := Ideal)
    (Host.scatterAdd scatter_S100000x128_S800000x1_S800000x128_1_0_0_1
      (broadcastInDim S100000x128 ![] bcast_S_S100000x128 (constant (F := Ideal) S_ .f32 0x00000000#32))
      (broadcastInDim S800000x1 ![0] bcast_S800000_S800000x1_0 dst)
      (select (broadcastInDim S800000x128 ![0, 1] bcast_S800000x1_S800000x128_0_1
                (broadcastInDim S800000x1 ![0] bcast_S800000_S800000x1_0 (relMask r etype)))
        xs
        (broadcastInDim S800000x128 ![] bcast_S_S800000x128 (constant (F := Ideal) S_ .f32 0x00000000#32))))
    (broadcastInDim S100000x128 ![0, 1] bcast_S100000x1_S100000x128_0_1
      (broadcastInDim S100000x1 ![0] bcast_S100000_S100000x1_0
        (maximumf
          (Host.scatterAdd scatter_S100000_S800000x1_S800000_n_0_0_1
            (broadcastInDim S100000 ![] bcast_S_S100000 (constant (F := Ideal) S_ .f32 0x00000000#32))
            (broadcastInDim S800000x1 ![0] bcast_S800000_S800000x1_0 dst)
            (uitofp .f32 (relMask r etype)))
          (broadcastInDim S100000 ![] bcast_S_S100000 (constant (F := Ideal) S_ .f32 0x3F800000#32)))))

/-- The per-relation mean of the neighbours' rows of `x`. -/
def relMean (r : BitVec 32) (x : FVec Ideal S100000x128 .f32) (src dst etype : IVec S800000 32) :
    FVec Ideal S100000x128 .f32 :=
  relMeanOf r (gatherRows x src) dst etype

/-! ## The network -/

/-- One relational graph layer of the node array `x`. -/
def graphLayer (x : FVec Ideal S100000x128 .f32) (src dst etype : IVec S800000 32)
    (wroot w0 w1 : FVec Ideal S128x128 .f32) (brow : FVec Ideal S1x128 .f32) : FVec Ideal S100000x128 .f32 :=
  combineLayer x (relMean 0#32 x src dst etype) (relMean 1#32 x src dst etype) wroot w0 w1 brow

/-- The whole network: the input layer, the same graph layer twice, the output layer. -/
def network (feat : FVec Ideal S100000x16 .f32) (index : IVec S2x800000 32) (etype : IVec S800000 32)
    (wIn : FVec Ideal S16x128 .f32) (bIn : FVec Ideal S128 .f32) (wRel : FVec Ideal S2x128x128 .f32)
    (wRoot : FVec Ideal S128x128 .f32) (bGraph : FVec Ideal S128 .f32) (wOut : FVec Ideal S128x3 .f32)
    (bOut : FVec Ideal S3 .f32) : FVec Ideal S100000x3 .f32 :=
  outputLayer
    (graphLayer
      (graphLayer (inputLayer feat wIn (biasRow bIn)) (edgeEnds0 index) (edgeEnds1 index) etype
        wRoot (relWeight0 wRel) (relWeight1 wRel) (biasRow bGraph))
      (edgeEnds0 index) (edgeEnds1 index) etype wRoot (relWeight0 wRel) (relWeight1 wRel) (biasRow bGraph))
    wOut (biasRow bOut)

end Cert.Rgcn

end
-- ==== Proof.LibMatmulFin.lean ====
/-
  A matrix product read at one entry, as a finite sum over a plain range.

  On the extended reals a matrix-unit product into a zero accumulator is, entry by entry, the sum
  over the contraction index of the products of the two operands' entries.  When one axis is
  contracted, of extent `K`, that index is just a number below `K`; the lemma below states the
  entry as a sum over `Fin K`, the caller naming which entry of each operand position `k` reads.
  It holds for any dimension numbers with a single contracted axis, whatever the operands' layout
  (either may be stored transposed).
-/
import Idealize.ShloMosaic.PureOps.Ideal.Laws
import Idealize.ShloMosaic.Lib.ValueIdx

noncomputable section

namespace Cert.LibMatmulFin

open Idealize.ShloMosaic Idealize.ShloMosaic.ValueIdx

/-- Two indices of a rank-two shape with equal coordinates are equal. -/
theorem idx2_ext {n0 n1 : Nat} (a b : (⟨2, ![n0, n1]⟩ : Shape).Idx)
    (h0 : (a 0).val = (b 0).val) (h1 : (a 1).val = (b 1).val) : a = b :=
  funext fun d => Fin.ext (by
    match d with
    | ⟨0, _⟩ => exact h0
    | ⟨1, _⟩ => exact h1)

/-- A product into the zero accumulator, contracted over ONE axis of extent `K`, read at the
    result index `j`: the sum over `k < K` of the left operand at `li k` times the right operand at
    `ri k`, where `li k` and `ri k` are the operand indices the dimension numbers assign to result
    index `j` and contraction position `k` (`hl`, `hri`). -/
theorem matmul_zero_apply_fin {sl sr so : Shape} {φ₁ φ₂ : FTy} (D : DotDims sl sr so) (K : Nat)
    (hr : D.contr.rank = 1) (hs : D.contr.size ⟨0, by omega⟩ = K) (prec : Option ContractPrecision)
    (A : FVec Ideal sl φ₁) (B : FVec Ideal sr φ₂) (j : so.Idx) (li : Fin K → sl.Idx) (ri : Fin K → sr.Idx)
    (hl : ∀ k, D.lhsIdx j ((contrEquiv1 D K hr hs).symm k) = li k)
    (hri : ∀ k, D.rhsIdx j ((contrEquiv1 D K hr hs).symm k) = ri k) :
    FloatOps.matmul D prec A B (constant so .f32 0x00000000#32) j = ∑ k : Fin K, A (li k) * B (ri k) := by
  rw [Ideal.matmul_constant_zero_apply, ← Equiv.sum_comp (contrEquiv1 D K hr hs).symm]
  exact Finset.sum_congr rfl fun k _ => by rw [hl k, hri k]

end Cert.LibMatmulFin

end
-- ==== Proof.InputLayer.lean ====
/-
  The input layer's kernel, read as one function of whole arrays.

  The kernel walks the 100000 rows of the feature array in 50 blocks of 2000 rows.  At each block it
  multiplies the block by the whole 16 × 128 weight matrix, adds the bias row to every row of the
  product, passes every entry through the leaky rectifier, and writes the 2000 × 128 result over the
  same rows of the output array.  This file shows that the output array therefore ends as
  `Cert.Rgcn.inputLayer` of the three arrays the kernel reads: entry (r, q) is
  leaky (Σₖ feat(r, k) · w(k, q) + b(0, q)).

  The one point of mathematics is the rectifier.  The kernel keeps y where y > 0 and takes slope · y
  elsewhere; the specification keeps y where y ≥ 0.  The two differ only in which branch serves y = 0,
  and there both branches give 0, since slope · 0 = 0 (`leaky_eq_strict`).

  The rest has three steps.
    1. One entry of what the body computes from a block, the weights and the bias: the rectifier of
       the finite sum over the shared axis plus the bias entry of the column (`inPayload_apply`).
    2. Block t of the feature array is rows 2000·t … 2000·t + 1999 of that array, while the weight and
       bias blocks are the whole arrays; so what the body leaves at block t is the specification
       read through the output's block t (`inFlushed_eq`).
    3. Row r lies in block r / 2000, so the 50 blocks cover the output array (`inBlocks_cover`),
       and an array written block by block with the blocks of one function is that function.

  Everything is stated at arbitrary contents `V` of the buffers when the kernel is entered.
-/
import proofs.«120295_j19387482374387_1_alg».proof.Proof.Gen.KernelIdeal.Frame
import proofs.«120295_j19387482374387_1_alg».proof.Proof.Spec
import proofs.«120295_j19387482374387_1_alg».proof.Proof.LibMatmulFin
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn.Kernel

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Facts₀

/-! ## The rectifier -/

/-- Choosing the branch by `0 < y` instead of `0 ≤ y` gives the same leaky rectifier: the two tests
    differ only at y = 0, where the other branch is slope · 0 = 0 = y. -/
theorem leaky_eq_strict (y : EReal) :
    (if 0 < y then y else Cert.Rgcn.slope * y) = Cert.Rgcn.leaky y := by
  unfold Cert.Rgcn.leaky
  rcases lt_trichotomy 0 y with h | h | h
  · rw [if_pos h, if_pos h.le]
  · subst h
    rw [if_neg (lt_irrefl _), if_pos le_rfl, mul_zero]
  · rw [if_neg (not_lt_of_gt h), if_neg (not_le_of_gt h)]

/-- A select on "y is greater than the zero constant" is the choice by `0 < y`: over the extended
    reals the comparison is the order's, and the single-precision word of all zero bits denotes 0. -/
theorem select_ogt_zero (y a b : EReal) :
    Scalar.select (FloatOps.cmpf (F := Ideal) (φ := .f32) .ogt y (Scalar.ofBits .f32 0x00000000#32)) a b
      = if 0 < y then a else b := by
  have hz : Scalar.ofBits (F := Ideal) .f32 0x00000000#32 = (0 : EReal) := Ideal.ofBits_zero_f32
  rw [Ideal.cmpf_def, hz]
  unfold Ideal.cmp
  by_cases h : 0 < y
  · rw [if_pos h]
    simp only [h, decide_true, BitVec.ofBool_true]
    exact select_one a b
  · rw [if_neg h]
    simp only [h, decide_false, BitVec.ofBool_false]
    exact select_zero a b

/-- The body's last three operations on the array `y` of pre-activations — compare with zero, scale
    by the slope, select — are the leaky rectifier, entry by entry. -/
theorem rectify_apply (y : FVec Ideal S2000x128 .f32) (j : S2000x128.Idx) :
    select (cmpf .ogt y (broadcast S2000x128 (Scalar.ofBits .f32 0x00000000#32))) y
        (mulf (broadcast S2000x128 (Scalar.ofBits .f32 0x3C23D70A#32)) y) j
      = Cert.Rgcn.leaky (y j) := by
  rw [select_apply, cmpf_apply, mulf_apply, broadcast_apply, broadcast_apply]
  exact (select_ogt_zero _ _ _).trans (leaky_eq_strict _)

/-! ## One entry of the body's arithmetic -/

/-- In the product of a 2000 × 16 block by the 16 × 128 weights, entry (p, q) at position `k` of the
    shared axis reads the left operand at (p, k): the row comes from the result's row, the column is
    the position along the contracted axis. -/
theorem inDot_left (p : Fin 2000) (q : Fin 128) (k : Fin 16) :
    dot_S2000x16_S16x128_S2000x128_1_0_0_1_n_n.lhsIdx (ix2 p q)
      ((contrEquiv1 dot_S2000x16_S16x128_S2000x128_1_0_0_1_n_n 16 rfl rfl).symm k) = ix2 p k := by
  refine Cert.LibMatmulFin.idx2_ext _ _ ?_ ?_
  · simp [DotDims.lhsIdx, dot_S2000x16_S16x128_S2000x128_1_0_0_1_n_n]; rfl
  · refine (DotDims.lhsIdx_val_of_single _ rfl _ _).trans ?_
    exact contrEquiv1_symm_val _ 16 rfl rfl k

/-- … and the right operand at (k, q): the row is the position along the contracted axis, the column
    comes from the result's column. -/
theorem inDot_right (p : Fin 2000) (q : Fin 128) (k : Fin 16) :
    dot_S2000x16_S16x128_S2000x128_1_0_0_1_n_n.rhsIdx (ix2 p q)
      ((contrEquiv1 dot_S2000x16_S16x128_S2000x128_1_0_0_1_n_n 16 rfl rfl).symm k) = ix2 k q := by
  refine Cert.LibMatmulFin.idx2_ext _ _ ?_ ?_
  · refine (DotDims.rhsIdx_val_of_single _ rfl _ _).trans ?_
    exact contrEquiv1_symm_val _ 16 rfl rfl k
  · simp [DotDims.rhsIdx, dot_S2000x16_S16x128_S2000x128_1_0_0_1_n_n]; rfl

/-- Entry (p, q) of the pre-activation, from a block `x` of rows, the weights `w` and the bias row `b`:
    the sum over the shared axis of x(p, k) · w(k, q), plus b(0, q).  Over the extended reals the
    narrowing of the operands before the product changes nothing, the product into a zero accumulator
    is the finite sum, a cast to the same shape is the identity, and broadcasting the one bias row over
    the 2000 rows reads row 0 whatever the row. -/
theorem inAffine_apply (x : Vec Ideal S2000x16 .f32) (w : Vec Ideal S16x128 .f32) (b : Vec Ideal S1x128 .f32)
    (p : Fin 2000) (q : Fin 128) :
    (addf (matmul dot_S2000x16_S16x128_S2000x128_1_0_0_1_n_n none
        (truncf .bf16 x Facts₀.bitsLt_bf16_f32) (truncf .bf16 w Facts₀.bitsLt_bf16_f32)
        (constant S2000x128 .f32 0x00000000#32))
      (broadcastTo S2000x128 (shapeCast S1x128 b Facts₀.shapeCasts_S1x128_S1x128) Facts₀.broadcasts_S1x128_S2000x128)
        : FVec Ideal S2000x128 .f32) (ix2 p q)
      = (∑ k : Fin 16, x (ix2 p k) * w (ix2 k q)) + b (ix2 (0 : Fin 1) q) := by
  rw [addf_apply]
  refine congrArg₂ (· + ·) ?_ ?_
  · exact Cert.LibMatmulFin.matmul_zero_apply_fin dot_S2000x16_S16x128_S2000x128_1_0_0_1_n_n 16 rfl rfl none _ _
      (ix2 p q) (fun k => ix2 p k) (fun k => ix2 k q) (inDot_left p q) (inDot_right p q)
  · refine (broadcastTo_1b_ab_apply _ _ p q).trans ?_
    rw [shapeCast_self]

/-- Entry (p, q) of what the body stores: the leaky rectifier of the pre-activation at (p, q). -/
theorem inPayload_apply (x : Vec Ideal S2000x16 .f32) (w : Vec Ideal S16x128 .f32) (b : Vec Ideal S1x128 .f32)
    (p : Fin 2000) (q : Fin 128) :
    k0_pay1 (F := Ideal) x w b (ix2 p q)
      = Cert.Rgcn.leaky ((∑ k : Fin 16, x (ix2 p k) * w (ix2 k q)) + b (ix2 (0 : Fin 1) q)) := by
  unfold k0_pay1
  exact (rectify_apply _ _).trans (congrArg Cert.Rgcn.leaky (inAffine_apply x w b p q))

/-- The specification at one entry, spelt out. -/
theorem inputLayer_apply (x : FVec Ideal S100000x16 .f32) (w : FVec Ideal S16x128 .f32) (b : FVec Ideal S1x128 .f32)
    (i : S100000x128.Idx) :
    Cert.Rgcn.inputLayer x w b i
      = Cert.Rgcn.leaky ((∑ k : Fin 16, x (ix2 (n0 := 100000) (i 0) k) * w (ix2 k (i 1))) + b (ix2 (0 : Fin 1) (i 1))) :=
  rfl

/-! ## The blocks the body reads -/

-- the contents of the buffers when the kernel is entered: arbitrary throughout
variable (V : (c : Dev nD) → (b : Ref sig .tc) → Buf (Elt Ideal) ((c : Thread nD τ).loc b))

/-- The body's loads and its store start at the origin (0, 0) of their blocks. -/
theorem originOffsets : (![0, 0] : Fin 2 → Nat) = fun _ => 0 := funext fun a => by fin_cases a <;> rfl

/-- Which block of each array grid point `t` uses, checked at each of the 50 points: the feature
    array's and the output's block indices are (t, 0) — the same row block —, the weights' and the bias
    row's are (0, 0) at every point. -/
theorem inBlockIndex : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature array's block at point `t`, at (y₀, y₁), is the array at (2000 · (row block of t) + y₀, y₁):
    an element of a block sits at block index × block size + its place inside the block, axis by axis. -/
theorem inRows_apply (c : Dev nD) (t : Fin cfg0.N) (y : S2000x16.Idx) (i : S100000x16.Idx)
    (h0 : (i 0).val = win0_3.index t (0 : Fin 2) * 2000 + (y 0).val) (h1 : (i 1).val = (y 1).val) :
    (iblk0 (F := Ideal) V c 0 t : Vec Ideal S2000x16 .f32) y = (V c main_arg0 : S100000x16.Idx → EReal) i := by
  obtain ⟨e0, e1, -⟩ := inBlockIndex t
  unfold iblk0
  rw [View.read_apply]
  show (V c main_arg0 : S100000x16.Idx → EReal) _ = _
  refine congrArg _ (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 16 + 1 * (y 1).val = (i 1).val; rw [e1, h1]; omega

/-- The weights' block at any point is the whole weight matrix. -/
theorem inWeights_apply (c : Dev nD) (t : Fin cfg0.N) (y : S16x128.Idx) :
    (iblk0 (F := Ideal) V c 1 t : Vec Ideal S16x128 .f32) y = (V c main_arg3 : S16x128.Idx → EReal) y := by
  obtain ⟨-, -, e0, e1, -⟩ := inBlockIndex t
  unfold iblk0
  rw [View.read_apply]
  show (V c main_arg3 : S16x128.Idx → EReal) _ = _
  refine congrArg _ (funext fun a => Fin.ext ?_)
  match a with
  | ⟨0, _⟩ => show win0_1.index t (0 : Fin 2) * 16 + 1 * (y 0).val = (y 0).val; rw [e0]; omega
  | ⟨1, _⟩ => show win0_1.index t (1 : Fin 2) * 128 + 1 * (y 1).val = (y 1).val; rw [e1]; omega

/-- The bias block at any point is the whole bias row. -/
theorem inBias_apply (c : Dev nD) (t : Fin cfg0.N) (y : S1x128.Idx) :
    (iblk0 (F := Ideal) V c 2 t : Vec Ideal S1x128 .f32) y = (V c main_v4 : S1x128.Idx → EReal) y := by
  obtain ⟨-, -, -, -, e0, e1, -⟩ := inBlockIndex t
  unfold iblk0
  rw [View.read_apply]
  show (V c main_v4 : S1x128.Idx → EReal) _ = _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-! ## What one grid point writes back -/

/-- Point `t` writes back block `t` of the specification.  Entry (p, q) of the stored block is the
    rectifier of Σₖ (row block t of feat)(p, k) · w(k, q) + b(0, q) (`inPayload_apply`); the output's
    block `t` puts that entry at row 2000·t + p, column q of the array; and row p of the feature
    array's block `t` is row 2000·t + p of the array — the same row block —, so the two arguments of
    the rectifier agree term by term. -/
theorem inFlushed_eq (c : Dev nD) (t : Fin cfg0.N) :
    (dat0 (F := Ideal) V c).flushed 3 t
      = ((cfg0.win 3).blk t).view.read (Elt Ideal)
          (Cert.Rgcn.inputLayer (V c main_arg0) (V c main_arg3) (V c main_v4)) := by
  show (cfg0.win 3).cut (grid0.coords t) ((dat0 (F := Ideal) V c).after 3 t) = _
  rw [after0_3]
  unfold out0_3
  rw [View.canon_unit_zero originOffsets]
  simp only [View.ld_unit_zero (S := S2000x16) originOffsets, View.ld_unit_zero (S := S16x128) originOffsets,
    View.ld_unit_zero (S := S1x128) originOffsets]
  funext j
  obtain ⟨p, q, rfl⟩ : ∃ (p : Fin 2000) (q : Fin 128), j = ix2 p q := ⟨j 0, j 1, eq_ix2 j⟩
  obtain ⟨-, -, -, -, -, -, -, e1⟩ := inBlockIndex t
  show k0_pay1 (F := Ideal) (iblk0 V c 0 t) (iblk0 V c 1 t) (iblk0 V c 2 t) (ix2 p q) = _
  refine (inPayload_apply (iblk0 V c 0 t) (iblk0 V c 1 t) (iblk0 V c 2 t) p q).trans ?_
  show _ = Cert.Rgcn.inputLayer (V c main_arg0) (V c main_arg3) (V c main_v4)
    (((cfg0.win 3).blk t).view.emb (ix2 p q))
  rw [inputLayer_apply]
  -- the output block spans all 128 columns: column q of the block is column q of the array
  have hq : q.val = (((cfg0.win 3).blk t).view.emb (ix2 p q) 1).val := by
    show q.val = win0_3.index t (1 : Fin 2) * 128 + 1 * q.val
    rw [e1]; omega
  refine congrArg Cert.Rgcn.leaky
    (congrArg₂ (· + ·) (Finset.sum_congr rfl fun k _ => congrArg₂ (· * ·) ?_ ?_) ?_)
  · exact inRows_apply V c t (ix2 p k) _
      (by show win0_3.index t (0 : Fin 2) * 2000 + 1 * p.val = win0_3.index t (0 : Fin 2) * 2000 + p.val; omega) rfl
  · exact (inWeights_apply V c t (ix2 k q)).trans
      (congrArg (V c main_arg3 : S16x128.Idx → EReal) (Cert.LibMatmulFin.idx2_ext _ _ rfl hq))
  · exact (inBias_apply V c t (ix2 0 q)).trans
      (congrArg (V c main_v4 : S1x128.Idx → EReal) (Cert.LibMatmulFin.idx2_ext _ _ rfl hq))

/-! ## The blocks cover the array -/

/-- An entry of the output array lies in point `t`'s block exactly when, on each axis, its coordinate
    is in the block's range: block index × block size up to that plus the block size. -/
theorem mem_inBlock (t : Fin cfg0.N) (i : S100000x128.Idx) :
    i ∈ ((cfg0.win 3).blk t).view.set
      ↔ ∀ a : Fin 2, win0_3.index t a * S2000x128.size a ≤ (i a).val
          ∧ (i a).val < win0_3.index t a * S2000x128.size a + S2000x128.size a := by
  show i ∈ ((View.whole main_v5).slice (win0_3.rect t)).set ↔ _
  rw [View.set_slice_whole, Rect.mem_set_unit]
  exact Iff.rfl

/-- Every entry is written: row r is in block r / 2000 (and 100000 = 50 · 2000 rows make 50 blocks),
    every block spans all 128 columns, and every point writes its block back. -/
theorem inBlocks_cover (i : S100000x128.Idx) :
    ∃ t : Fin cfg0.N, (cfg0.win 3).flush t = true ∧ i ∈ ((cfg0.win 3).blk t).view.set := by
  have h0 : (i 0).val < 100000 := idx2_lt0 i
  have h1 : (i 1).val < 128 := idx2_lt1 i
  have hN : cfg0.N = 50 := N_0
  let t : Fin cfg0.N := ⟨(i 0).val / 2000, by rw [hN]; omega⟩
  obtain ⟨-, -, -, -, -, -, e0, e1⟩ := inBlockIndex t
  have ht : t.val = (i 0).val / 2000 := rfl
  refine ⟨t, flush0_3 t, ?_⟩
  rw [mem_inBlock]
  intro a
  match a with
  | ⟨0, _⟩ =>
    show win0_3.index t (0 : Fin 2) * 2000 ≤ (i 0).val ∧ (i 0).val < win0_3.index t (0 : Fin 2) * 2000 + 2000
    rw [e0, ht]; omega
  | ⟨1, _⟩ =>
    show win0_3.index t (1 : Fin 2) * 128 ≤ (i 1).val ∧ (i 1).val < win0_3.index t (1 : Fin 2) * 128 + 128
    rw [e1]; omega

/-! ## The whole array -/

/-- THE INPUT LAYER'S KERNEL: after its 50 points the output array is `leaky (feat · w + b)` of the
    feature array, the weights and the bias row as the kernel found them — each point writes its block
    of that function, and the blocks cover the array. -/
theorem inputLayer_array (c : Dev nD) :
    (dat0 (F := Ideal) V c).arrAt 3 cfg0.N
      = Cert.Rgcn.inputLayer (V c main_arg0) (V c main_arg3) (V c main_v4) :=
  (dat0 (F := Ideal) V c).arrAt_eq_of_cover 3
    (Cert.Rgcn.inputLayer (V c main_arg0) (V c main_arg3) (V c main_v4))
    (fun t _ => inFlushed_eq V c t) inBlocks_cover

end Cert.Rgcn.Kernel

end
-- ==== Proof.GraphLayerFirst.lean ====
/-
  The first relational graph layer: what its kernel leaves in the output array.

  The kernel walks the 100000 node rows in 50 blocks of 2000.  At block `t` it is handed rows
  `2000·t … 2000·t + 1999` of the node array and of the two per-relation mean arrays, the three
  128 × 128 weight matrices and the one-row bias whole, and it stores, for row `p` of the block and
  column `q`,

      ((∑ₖ x[p,k]·wroot[k,q] + ∑ₖ m0[p,k]·w0[k,q]) + ∑ₖ m1[p,k]·w1[k,q]) + bias[0,q],

  each of the three products formed into its own zero accumulator.  That block is written back over
  rows `2000·t …` of the output array.  The theorem at the end says that after all 50 blocks the
  output array is `combineLayer` of the seven arrays the region was entered with — entry by entry
  the same expression with the array's own row `2000·t + p` in place of `p`.

  The argument has four steps.
    1. One entry of the body's arithmetic, over arbitrary blocks (`blockProduct_apply`,
       `payload_apply`): rounding to a narrower format and a shape cast to the same shape do nothing
       over the extended reals, a matrix product into a zero accumulator is the sum over the shared
       axis, and the one-row bias broadcast down the rows reads its own row.
    2. Where a block's entry sits in its array (`blockIndex_facts`, the `…_read` lemmas,
       `outBlock_emb`): row `p` of block `t` of a row-tiled array is row `2000·t + p`, and the
       weight and bias blocks are their whole arrays.
    3. Hence what block `t` writes back is block `t` of `combineLayer` (`flushed_eq`).
    4. Every row `r` lies in block `r / 2000` (`blocks_cover`), so the blocks written back fill the
       array, and an array filled blockwise with the blocks of one function is that function.
-/
import proofs.«120295_j19387482374387_1_alg».proof.Proof.Gen.KernelIdeal.Frame
import proofs.«120295_j19387482374387_1_alg».proof.Proof.Spec
import proofs.«120295_j19387482374387_1_alg».proof.Proof.LibMatmulFin
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn.Kernel.First

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Facts₀

/-! ## Step 1: one entry of the body's arithmetic -/

/-- One entry of a block product.  A 2000 × 128 block `A` times a 128 × 128 matrix `B`, contracted
    over `A`'s columns and `B`'s rows into a zero accumulator, has at `(p, q)` the sum over `k` of
    `A[p,k] · B[k,q]`: the dimension numbers send result index `(p, q)` and contraction position `k`
    to `(p, k)` on the left — the row is the result's row, the column is `k` — and to `(k, q)` on the
    right. -/
theorem blockProduct_apply (A : FVec Ideal S2000x128 .bf16) (B : FVec Ideal S128x128 .bf16)
    (p : Fin 2000) (q : Fin 128) :
    FloatOps.matmul dot_S2000x128_S128x128_S2000x128_1_0_0_1_n_n none A B
        (constant S2000x128 .f32 0x00000000#32) (ix2 p q)
      = ∑ k : Fin 128, A (ix2 p k) * B (ix2 k q) := by
  refine Cert.LibMatmulFin.matmul_zero_apply_fin dot_S2000x128_S128x128_S2000x128_1_0_0_1_n_n 128 rfl rfl none A B
    (ix2 p q) (fun k => ix2 p k) (fun k => ix2 k q) (fun k => ?_) (fun k => ?_)
  · -- the left operand's index: row from the result, column from the contraction position
    refine Cert.LibMatmulFin.idx2_ext _ _ ?_ ?_
    · simp [DotDims.lhsIdx, dot_S2000x128_S128x128_S2000x128_1_0_0_1_n_n]; rfl
    · refine (DotDims.lhsIdx_val_of_single _ rfl _ _).trans ?_
      exact contrEquiv1_symm_val _ 128 rfl rfl k
  · -- the right operand's index: row from the contraction position, column from the result
    refine Cert.LibMatmulFin.idx2_ext _ _ ?_ ?_
    · refine (DotDims.rhsIdx_val_of_single _ rfl _ _).trans ?_
      exact contrEquiv1_symm_val _ 128 rfl rfl k
    · simp [DotDims.rhsIdx, dot_S2000x128_S128x128_S2000x128_1_0_0_1_n_n]; rfl

/-- The body's stored value at entry `(p, q)`, for any blocks it is handed.  Over the extended reals
    the roundings to the narrower format and the casts to the same shape are the identity, so each
    operand enters its product as it is; the three products are entries of block products
    (`blockProduct_apply`), added left to right; the bias row, broadcast down the 2000 rows, reads its
    row `0` at column `q`. -/
theorem payload_apply (x m0 m1 : Vec Ideal S2000x128 .f32) (wroot w0 w1 : Vec Ideal S128x128 .f32)
    (b : Vec Ideal S1x128 .f32) (p : Fin 2000) (q : Fin 128) :
    k1_pay1 (F := Ideal) x m0 m1 wroot w0 w1 b (ix2 p q)
      = ((∑ k : Fin 128, x (ix2 p k) * wroot (ix2 k q) + ∑ k : Fin 128, m0 (ix2 p k) * w0 (ix2 k q))
          + ∑ k : Fin 128, m1 (ix2 p k) * w1 (ix2 k q)) + b (ix2 (0 : Fin 1) q) := by
  unfold k1_pay1
  simp only [shapeCast_self]
  refine congrArg₂ (· + ·) (congrArg₂ (· + ·) (congrArg₂ (· + ·) ?_ ?_) ?_) ?_
  · exact blockProduct_apply _ _ p q
  · exact blockProduct_apply _ _ p q
  · exact blockProduct_apply _ _ p q
  · exact broadcastTo_1b_ab_apply b _ p q

/-- `combineLayer` at entry `(r, q)`, written out: the same three sums and the bias entry, over whole
    arrays. -/
theorem combineLayer_apply (x m0 m1 : FVec Ideal S100000x128 .f32) (wroot w0 w1 : FVec Ideal S128x128 .f32)
    (b : FVec Ideal S1x128 .f32) (r : Fin 100000) (q : Fin 128) :
    Cert.Rgcn.combineLayer x m0 m1 wroot w0 w1 b (ix2 r q)
      = ((∑ k : Fin 128, x (ix2 r k) * wroot (ix2 k q) + ∑ k : Fin 128, m0 (ix2 r k) * w0 (ix2 k q))
          + ∑ k : Fin 128, m1 (ix2 r k) * w1 (ix2 k q)) + b (ix2 (0 : Fin 1) q) := rfl

/-! ## Step 2: where a block's entry sits in its array -/

-- the contents of every buffer when the region is entered: arbitrary throughout
variable (V : (c : Dev nD) → (b : Ref sig .tc) → Buf (Elt Ideal) ((c : Thread nD τ).loc b))

/-- The body reads and writes each of its blocks whole: from offset `(0, 0)`. -/
theorem zeroOffsets : (![0, 0] : Fin 2 → Nat) = fun _ => 0 := funext fun a => by fin_cases a <;> rfl

/-- There are 50 blocks. -/
theorem points_lt (t : Fin cfg1.N) : t.val < 50 := lt_of_lt_of_eq t.isLt N_1

/-- Which block of its array each operand is handed at block `t`, checked over the 50 blocks: the
    three row-tiled inputs and the output take block `(t, 0)`; the three weight matrices and the bias
    row always take block `(0, 0)`, which is the whole array. -/
theorem blockIndex_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of block `t` is row `2000·t + p` of the array. -/
def blockRow (t : Fin cfg1.N) (p : Fin 2000) : Fin 100000 :=
  ⟨t.val * 2000 + p.val, by have := points_lt t; have := p.isLt; omega⟩

/-! An entry of a block sits in the array, on each axis, at (block index) × (block size) + (its
    coordinate in the block).  With the block indices above this places entry `(p, k)` of a row-tiled
    block at `(2000·t + p, k)` and leaves the entries of a whole-array block where they are. -/

/-- The block of the node array at block `t`, at `(p, k)`: the array at `(2000·t + p, k)`. -/
theorem nodeBlock_read (c : Dev nD) (t : Fin cfg1.N) (p : Fin 2000) (k : Fin 128) :
    iblk1 (F := Ideal) V c 0 t (ix2 p k) = V c main_v5 (ix2 (blockRow t p) k) := by
  show V c main_v5 (((cfg1.win 0).blk t).view.emb (ix2 p k)) = _
  obtain ⟨x0, x1, y0, y1, z0, z1, -⟩ := blockIndex_facts t
  refine congrArg (V c main_v5) (Cert.LibMatmulFin.idx2_ext _ _ ?_ ?_)
  · show win1_0.index t (0 : Fin 2) * 2000 + 1 * p.val = t.val * 2000 + p.val
    omega
  · show win1_0.index t (1 : Fin 2) * 128 + 1 * k.val = k.val
    omega

/-- The block of the relation-0 mean array at block `t`, at `(p, k)`: the array at `(2000·t + p, k)`. -/
theorem mean0Block_read (c : Dev nD) (t : Fin cfg1.N) (p : Fin 2000) (k : Fin 128) :
    iblk1 (F := Ideal) V c 1 t (ix2 p k) = V c main_v32 (ix2 (blockRow t p) k) := by
  show V c main_v32 (((cfg1.win 1).blk t).view.emb (ix2 p k)) = _
  obtain ⟨x0, x1, y0, y1, z0, z1, -⟩ := blockIndex_facts t
  refine congrArg (V c main_v32) (Cert.LibMatmulFin.idx2_ext _ _ ?_ ?_)
  · show win1_1.index t (0 : Fin 2) * 2000 + 1 * p.val = t.val * 2000 + p.val
    omega
  · show win1_1.index t (1 : Fin 2) * 128 + 1 * k.val = k.val
    omega

/-- The block of the relation-1 mean array at block `t`, at `(p, k)`: the array at `(2000·t + p, k)`. -/
theorem mean1Block_read (c : Dev nD) (t : Fin cfg1.N) (p : Fin 2000) (k : Fin 128) :
    iblk1 (F := Ideal) V c 2 t (ix2 p k) = V c main_v48 (ix2 (blockRow t p) k) := by
  show V c main_v48 (((cfg1.win 2).blk t).view.emb (ix2 p k)) = _
  obtain ⟨x0, x1, y0, y1, z0, z1, -⟩ := blockIndex_facts t
  refine congrArg (V c main_v48) (Cert.LibMatmulFin.idx2_ext _ _ ?_ ?_)
  · show win1_2.index t (0 : Fin 2) * 2000 + 1 * p.val = t.val * 2000 + p.val
    omega
  · show win1_2.index t (1 : Fin 2) * 128 + 1 * k.val = k.val
    omega

/-- The root weights are handed over whole at every block. -/
theorem rootWeights_read (c : Dev nD) (t : Fin cfg1.N) (k q : Fin 128) :
    iblk1 (F := Ideal) V c 3 t (ix2 k q) = V c main_arg6 (ix2 k q) := by
  show V c main_arg6 (((cfg1.win 3).blk t).view.emb (ix2 k q)) = _
  obtain ⟨-, -, -, -, -, -, r0, r1, a0, a1, b0, b1, -⟩ := blockIndex_facts t
  refine congrArg (V c main_arg6) (Cert.LibMatmulFin.idx2_ext _ _ ?_ ?_)
  · show win1_3.index t (0 : Fin 2) * 128 + 1 * k.val = k.val
    omega
  · show win1_3.index t (1 : Fin 2) * 128 + 1 * q.val = q.val
    omega

/-- The relation-0 weights are handed over whole at every block. -/
theorem rel0Weights_read (c : Dev nD) (t : Fin cfg1.N) (k q : Fin 128) :
    iblk1 (F := Ideal) V c 4 t (ix2 k q) = V c main_v7 (ix2 k q) := by
  show V c main_v7 (((cfg1.win 4).blk t).view.emb (ix2 k q)) = _
  obtain ⟨-, -, -, -, -, -, r0, r1, a0, a1, b0, b1, -⟩ := blockIndex_facts t
  refine congrArg (V c main_v7) (Cert.LibMatmulFin.idx2_ext _ _ ?_ ?_)
  · show win1_4.index t (0 : Fin 2) * 128 + 1 * k.val = k.val
    omega
  · show win1_4.index t (1 : Fin 2) * 128 + 1 * q.val = q.val
    omega

/-- The relation-1 weights are handed over whole at every block. -/
theorem rel1Weights_read (c : Dev nD) (t : Fin cfg1.N) (k q : Fin 128) :
    iblk1 (F := Ideal) V c 5 t (ix2 k q) = V c main_v9 (ix2 k q) := by
  show V c main_v9 (((cfg1.win 5).blk t).view.emb (ix2 k q)) = _
  obtain ⟨-, -, -, -, -, -, r0, r1, a0, a1, b0, b1, -⟩ := blockIndex_facts t
  refine congrArg (V c main_v9) (Cert.LibMatmulFin.idx2_ext _ _ ?_ ?_)
  · show win1_5.index t (0 : Fin 2) * 128 + 1 * k.val = k.val
    omega
  · show win1_5.index t (1 : Fin 2) * 128 + 1 * q.val = q.val
    omega

/-- The bias row is handed over whole at every block. -/
theorem biasRow_read (c : Dev nD) (t : Fin cfg1.N) (q : Fin 128) :
    iblk1 (F := Ideal) V c 6 t (ix2 (0 : Fin 1) q) = V c main_v49 (ix2 (0 : Fin 1) q) := by
  show V c main_v49 (((cfg1.win 6).blk t).view.emb (ix2 (0 : Fin 1) q)) = _
  obtain ⟨-, -, -, -, -, -, -, -, -, -, -, -, b0, b1, -⟩ := blockIndex_facts t
  refine congrArg (V c main_v49) (Cert.LibMatmulFin.idx2_ext _ _ ?_ ?_)
  · show win1_6.index t (0 : Fin 2) * 1 + 1 * (0 : Fin 1).val = (0 : Fin 1).val
    omega
  · show win1_6.index t (1 : Fin 2) * 128 + 1 * q.val = q.val
    omega

/-- Entry `(p, q)` of the output's block `t` is entry `(2000·t + p, q)` of the output array. -/
theorem outBlock_emb (t : Fin cfg1.N) (p : Fin 2000) (q : Fin 128) :
    ((cfg1.win 7).blk t).view.emb (ix2 p q) = ix2 (blockRow t p) q := by
  obtain ⟨-, -, -, -, -, -, -, -, -, -, -, -, -, -, o0, o1⟩ := blockIndex_facts t
  refine Cert.LibMatmulFin.idx2_ext _ _ ?_ ?_
  · show win1_7.index t (0 : Fin 2) * 2000 + 1 * p.val = t.val * 2000 + p.val
    omega
  · show win1_7.index t (1 : Fin 2) * 128 + 1 * q.val = q.val
    omega

/-! ## Step 3: what block `t` writes back -/

/-- What block `t` writes back over its rows of the output array is block `t` of `combineLayer` of the
    arrays as the region finds them.  The body's one store covers its whole block, so the block holds
    the stored value; at `(p, q)` that is the three sums and the bias entry over the input blocks
    (`payload_apply`); each block entry is the array entry step 2 names; and the result is
    `combineLayer` at `(2000·t + p, q)`, which is where `(p, q)` of the output block goes. -/
theorem flushed_eq (c : Dev nD) (t : Fin cfg1.N) :
    (dat1 (F := Ideal) V c).flushed 7 t = ((cfg1.win 7).blk t).view.read (Elt Ideal)
      (Cert.Rgcn.combineLayer (V c main_v5) (V c main_v32) (V c main_v48) (V c main_arg6) (V c main_v7) (V c main_v9)
        (V c main_v49)) := by
  show (cfg1.win 7).cut (grid1.coords t) ((dat1 V c).after 7 t) = _
  rw [after1_7]
  unfold out1_7
  -- one store over the whole block leaves the stored value; a load of a whole block reads the block
  rw [View.canon_unit_zero zeroOffsets]
  simp only [View.ld_unit_zero (S := S2000x128) zeroOffsets, View.ld_unit_zero (S := S128x128) zeroOffsets,
    View.ld_unit_zero (S := S1x128) zeroOffsets]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t)
      (iblk1 V c 5 t) (iblk1 V c 6 t) (ix2 p q)
    = Cert.Rgcn.combineLayer (V c main_v5) (V c main_v32) (V c main_v48) (V c main_arg6) (V c main_v7) (V c main_v9)
        (V c main_v49) (((cfg1.win 7).blk t).view.emb (ix2 p q))
  refine (payload_apply (iblk1 V c 0 t) (iblk1 V c 1 t) (iblk1 V c 2 t) (iblk1 V c 3 t) (iblk1 V c 4 t)
      (iblk1 V c 5 t) (iblk1 V c 6 t) p q).trans ?_
  rw [outBlock_emb t p q]
  refine Eq.trans ?_ (combineLayer_apply (V c main_v5) (V c main_v32) (V c main_v48) (V c main_arg6) (V c main_v7)
    (V c main_v9) (V c main_v49) (blockRow t p) q).symm
  -- the two sides are the same expression, summand by summand
  refine congrArg₂ (· + ·) (congrArg₂ (· + ·) (congrArg₂ (· + ·) ?_ ?_) ?_) (biasRow_read V c t q)
  · exact Finset.sum_congr rfl fun k _ => congrArg₂ (· * ·) (nodeBlock_read V c t p k) (rootWeights_read V c t k q)
  · exact Finset.sum_congr rfl fun k _ => congrArg₂ (· * ·) (mean0Block_read V c t p k) (rel0Weights_read V c t k q)
  · exact Finset.sum_congr rfl fun k _ => congrArg₂ (· * ·) (mean1Block_read V c t p k) (rel1Weights_read V c t k q)

/-! ## Step 4: the blocks fill the array -/

/-- An entry of the output array lies in block `t` exactly when, on each axis, its coordinate lies
    in the block's range: from (block index) × (block size), for (block size) places. -/
theorem mem_block (t : Fin cfg1.N) (i : S100000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v50).slice (win1_7.rect t)).set ↔ _
  rw [View.set_slice_whole, Rect.mem_set_unit]
  exact Iff.rfl

/-- Every entry of the output array is written back by some block: row `r` lies in block `r / 2000`,
    since `2000·(r / 2000) ≤ r < 2000·(r / 2000) + 2000` and `r / 2000 < 50` for `r < 100000`; a block
    spans all 128 columns. -/
theorem blocks_cover (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_7 _, ?_⟩
  rw [mem_block]
  obtain ⟨-, -, -, -, -, -, -, -, -, -, -, -, -, -, o0, o1⟩ := blockIndex_facts ⟨(i 0).val / 2000, by rw [hN]; omega⟩
  intro a
  match a with
  | ⟨0, _⟩ =>
    show win1_7.index _ (0 : Fin 2) * 2000 ≤ (i 0).val ∧ (i 0).val < win1_7.index _ (0 : Fin 2) * 2000 + 2000
    rw [o0]
    show (i 0).val / 2000 * 2000 ≤ (i 0).val ∧ (i 0).val < (i 0).val / 2000 * 2000 + 2000
    omega
  | ⟨1, _⟩ =>
    show win1_7.index _ (1 : Fin 2) * 128 ≤ (i 1).val ∧ (i 1).val < win1_7.index _ (1 : Fin 2) * 128 + 128
    rw [o1]
    omega

end Cert.Rgcn.Kernel.First

namespace Cert.Rgcn.Kernel

open Idealize.ShloMosaic Idealize.ShloMosaic.TcCoe Idealize.SL.Sem
open Cert.KernelIdeal Cert.KernelIdeal.Gen

/-- THE FIRST GRAPH LAYER'S OUTPUT ARRAY.  Whatever the buffers hold when the region is entered
    (`V`), after its 50 blocks the output array is `combineLayer` of the node array, the two
    per-relation mean arrays, the root and per-relation weights and the bias row as the region found
    them: every block written back is a block of that one function (`flushed_eq`), and the blocks
    fill the array (`blocks_cover`). -/
theorem graphLayerFirst_array
    (V : (c : Dev nD) → (b : Ref sig .tc) → Buf (Elt Ideal) ((c : Thread nD τ).loc b)) (c : Dev nD) :
    (dat1 (F := Ideal) V c).arrAt 7 cfg1.N
      = Cert.Rgcn.combineLayer (V c main_v5) (V c main_v32) (V c main_v48) (V c main_arg6) (V c main_v7) (V c main_v9)
          (V c main_v49) :=
  (dat1 (F := Ideal) V c).arrAt_eq_of_cover 7 _ (fun t _ => First.flushed_eq V c t) First.blocks_cover

end Cert.Rgcn.Kernel

end
-- ==== Proof.GraphLayerSecond.lean ====
/-
  The second relational graph layer: what its kernel leaves in the output array.

  The kernel walks the 100000 node rows in 50 blocks of 2000.  At block `t` it is handed rows
  `2000·t … 2000·t + 1999` of the node array and of the two per-relation mean arrays, the three
  128 × 128 weight matrices and the one-row bias whole, and it stores, for row `p` of the block and
  column `q`,

      ((∑ₖ x[p,k]·wroot[k,q] + ∑ₖ m0[p,k]·w0[k,q]) + ∑ₖ m1[p,k]·w1[k,q]) + bias[0,q],

  each of the three products formed into its own zero accumulator.  That block is written back over
  rows `2000·t …` of the output array.  The theorem at the end says that after all 50 blocks the
  output array is `combineLayer` of the seven arrays the region was entered with — entry by entry
  the same expression with the array's own row `2000·t + p` in place of `p`.

  The argument has four steps.
    1. One entry of the body's arithmetic, over arbitrary blocks (`blockProduct_apply`,
       `payload_apply`): rounding to a narrower format and a shape cast to the same shape do nothing
       over the extended reals, a matrix product into a zero accumulator is the sum over the shared
       axis, and the one-row bias broadcast down the rows reads its own row.
    2. Where a block's entry sits in its array (`blockIndex_facts`, the `…_read` lemmas,
       `outBlock_emb`): row `p` of block `t` of a row-tiled array is row `2000·t + p`, and the
       weight and bias blocks are their whole arrays.
    3. Hence what block `t` writes back is block `t` of `combineLayer` (`flushed_eq`).
    4. Every row `r` lies in block `r / 2000` (`blocks_cover`), so the blocks written back fill the
       array, and an array filled blockwise with the blocks of one function is that function.
-/
import proofs.«120295_j19387482374387_1_alg».proof.Proof.Gen.KernelIdeal.Frame
import proofs.«120295_j19387482374387_1_alg».proof.Proof.Spec
import proofs.«120295_j19387482374387_1_alg».proof.Proof.LibMatmulFin
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn.Kernel.Second

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Facts₀

/-! ## Step 1: one entry of the body's arithmetic -/

/-- One entry of a block product.  A 2000 × 128 block `A` times a 128 × 128 matrix `B`, contracted
    over `A`'s columns and `B`'s rows into a zero accumulator, has at `(p, q)` the sum over `k` of
    `A[p,k] · B[k,q]`: the dimension numbers send result index `(p, q)` and contraction position `k`
    to `(p, k)` on the left — the row is the result's row, the column is `k` — and to `(k, q)` on the
    right. -/
theorem blockProduct_apply (A : FVec Ideal S2000x128 .bf16) (B : FVec Ideal S128x128 .bf16)
    (p : Fin 2000) (q : Fin 128) :
    FloatOps.matmul dot_S2000x128_S128x128_S2000x128_1_0_0_1_n_n none A B
        (constant S2000x128 .f32 0x00000000#32) (ix2 p q)
      = ∑ k : Fin 128, A (ix2 p k) * B (ix2 k q) := by
  refine Cert.LibMatmulFin.matmul_zero_apply_fin dot_S2000x128_S128x128_S2000x128_1_0_0_1_n_n 128 rfl rfl none A B
    (ix2 p q) (fun k => ix2 p k) (fun k => ix2 k q) (fun k => ?_) (fun k => ?_)
  · -- the left operand's index: row from the result, column from the contraction position
    refine Cert.LibMatmulFin.idx2_ext _ _ ?_ ?_
    · simp [DotDims.lhsIdx, dot_S2000x128_S128x128_S2000x128_1_0_0_1_n_n]; rfl
    · refine (DotDims.lhsIdx_val_of_single _ rfl _ _).trans ?_
      exact contrEquiv1_symm_val _ 128 rfl rfl k
  · -- the right operand's index: row from the contraction position, column from the result
    refine Cert.LibMatmulFin.idx2_ext _ _ ?_ ?_
    · refine (DotDims.rhsIdx_val_of_single _ rfl _ _).trans ?_
      exact contrEquiv1_symm_val _ 128 rfl rfl k
    · simp [DotDims.rhsIdx, dot_S2000x128_S128x128_S2000x128_1_0_0_1_n_n]; rfl

/-- The body's stored value at entry `(p, q)`, for any blocks it is handed.  Over the extended reals
    the roundings to the narrower format and the casts to the same shape are the identity, so each
    operand enters its product as it is; the three products are entries of block products
    (`blockProduct_apply`), added left to right; the bias row, broadcast down the 2000 rows, reads its
    row `0` at column `q`. -/
theorem payload_apply (x m0 m1 : Vec Ideal S2000x128 .f32) (wroot w0 w1 : Vec Ideal S128x128 .f32)
    (b : Vec Ideal S1x128 .f32) (p : Fin 2000) (q : Fin 128) :
    k2_pay1 (F := Ideal) x m0 m1 wroot w0 w1 b (ix2 p q)
      = ((∑ k : Fin 128, x (ix2 p k) * wroot (ix2 k q) + ∑ k : Fin 128, m0 (ix2 p k) * w0 (ix2 k q))
          + ∑ k : Fin 128, m1 (ix2 p k) * w1 (ix2 k q)) + b (ix2 (0 : Fin 1) q) := by
  unfold k2_pay1
  simp only [shapeCast_self]
  refine congrArg₂ (· + ·) (congrArg₂ (· + ·) (congrArg₂ (· + ·) ?_ ?_) ?_) ?_
  · exact blockProduct_apply _ _ p q
  · exact blockProduct_apply _ _ p q
  · exact blockProduct_apply _ _ p q
  · exact broadcastTo_1b_ab_apply b _ p q

/-- `combineLayer` at entry `(r, q)`, written out: the same three sums and the bias entry, over whole
    arrays. -/
theorem combineLayer_apply (x m0 m1 : FVec Ideal S100000x128 .f32) (wroot w0 w1 : FVec Ideal S128x128 .f32)
    (b : FVec Ideal S1x128 .f32) (r : Fin 100000) (q : Fin 128) :
    Cert.Rgcn.combineLayer x m0 m1 wroot w0 w1 b (ix2 r q)
      = ((∑ k : Fin 128, x (ix2 r k) * wroot (ix2 k q) + ∑ k : Fin 128, m0 (ix2 r k) * w0 (ix2 k q))
          + ∑ k : Fin 128, m1 (ix2 r k) * w1 (ix2 k q)) + b (ix2 (0 : Fin 1) q) := rfl

/-! ## Step 2: where a block's entry sits in its array -/

-- the contents of every buffer when the region is entered: arbitrary throughout
variable (V : (c : Dev nD) → (b : Ref sig .tc) → Buf (Elt Ideal) ((c : Thread nD τ).loc b))

/-- The body reads and writes each of its blocks whole: from offset `(0, 0)`. -/
theorem zeroOffsets : (![0, 0] : Fin 2 → Nat) = fun _ => 0 := funext fun a => by fin_cases a <;> rfl

/-- There are 50 blocks. -/
theorem points_lt (t : Fin cfg2.N) : t.val < 50 := lt_of_lt_of_eq t.isLt N_2

/-- Which block of its array each operand is handed at block `t`, checked over the 50 blocks: the
    three row-tiled inputs and the output take block `(t, 0)`; the three weight matrices and the bias
    row always take block `(0, 0)`, which is the whole array. -/
theorem blockIndex_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of block `t` is row `2000·t + p` of the array. -/
def blockRow (t : Fin cfg2.N) (p : Fin 2000) : Fin 100000 :=
  ⟨t.val * 2000 + p.val, by have := points_lt t; have := p.isLt; omega⟩

/-! An entry of a block sits in the array, on each axis, at (block index) × (block size) + (its
    coordinate in the block).  With the block indices above this places entry `(p, k)` of a row-tiled
    block at `(2000·t + p, k)` and leaves the entries of a whole-array block where they are. -/

/-- The block of the node array at block `t`, at `(p, k)`: the array at `(2000·t + p, k)`. -/
theorem nodeBlock_read (c : Dev nD) (t : Fin cfg2.N) (p : Fin 2000) (k : Fin 128) :
    iblk2 (F := Ideal) V c 0 t (ix2 p k) = V c main_v50 (ix2 (blockRow t p) k) := by
  show V c main_v50 (((cfg2.win 0).blk t).view.emb (ix2 p k)) = _
  obtain ⟨x0, x1, y0, y1, z0, z1, -⟩ := blockIndex_facts t
  refine congrArg (V c main_v50) (Cert.LibMatmulFin.idx2_ext _ _ ?_ ?_)
  · show win2_0.index t (0 : Fin 2) * 2000 + 1 * p.val = t.val * 2000 + p.val
    omega
  · show win2_0.index t (1 : Fin 2) * 128 + 1 * k.val = k.val
    omega

/-- The block of the relation-0 mean array at block `t`, at `(p, k)`: the array at `(2000·t + p, k)`. -/
theorem mean0Block_read (c : Dev nD) (t : Fin cfg2.N) (p : Fin 2000) (k : Fin 128) :
    iblk2 (F := Ideal) V c 1 t (ix2 p k) = V c main_v73 (ix2 (blockRow t p) k) := by
  show V c main_v73 (((cfg2.win 1).blk t).view.emb (ix2 p k)) = _
  obtain ⟨x0, x1, y0, y1, z0, z1, -⟩ := blockIndex_facts t
  refine congrArg (V c main_v73) (Cert.LibMatmulFin.idx2_ext _ _ ?_ ?_)
  · show win2_1.index t (0 : Fin 2) * 2000 + 1 * p.val = t.val * 2000 + p.val
    omega
  · show win2_1.index t (1 : Fin 2) * 128 + 1 * k.val = k.val
    omega

/-- The block of the relation-1 mean array at block `t`, at `(p, k)`: the array at `(2000·t + p, k)`. -/
theorem mean1Block_read (c : Dev nD) (t : Fin cfg2.N) (p : Fin 2000) (k : Fin 128) :
    iblk2 (F := Ideal) V c 2 t (ix2 p k) = V c main_v89 (ix2 (blockRow t p) k) := by
  show V c main_v89 (((cfg2.win 2).blk t).view.emb (ix2 p k)) = _
  obtain ⟨x0, x1, y0, y1, z0, z1, -⟩ := blockIndex_facts t
  refine congrArg (V c main_v89) (Cert.LibMatmulFin.idx2_ext _ _ ?_ ?_)
  · show win2_2.index t (0 : Fin 2) * 2000 + 1 * p.val = t.val * 2000 + p.val
    omega
  · show win2_2.index t (1 : Fin 2) * 128 + 1 * k.val = k.val
    omega

/-- The root weights are handed over whole at every block. -/
theorem rootWeights_read (c : Dev nD) (t : Fin cfg2.N) (k q : Fin 128) :
    iblk2 (F := Ideal) V c 3 t (ix2 k q) = V c main_arg6 (ix2 k q) := by
  show V c main_arg6 (((cfg2.win 3).blk t).view.emb (ix2 k q)) = _
  obtain ⟨-, -, -, -, -, -, r0, r1, a0, a1, b0, b1, -⟩ := blockIndex_facts t
  refine congrArg (V c main_arg6) (Cert.LibMatmulFin.idx2_ext _ _ ?_ ?_)
  · show win2_3.index t (0 : Fin 2) * 128 + 1 * k.val = k.val
    omega
  · show win2_3.index t (1 : Fin 2) * 128 + 1 * q.val = q.val
    omega

/-- The relation-0 weights are handed over whole at every block. -/
theorem rel0Weights_read (c : Dev nD) (t : Fin cfg2.N) (k q : Fin 128) :
    iblk2 (F := Ideal) V c 4 t (ix2 k q) = V c main_v7 (ix2 k q) := by
  show V c main_v7 (((cfg2.win 4).blk t).view.emb (ix2 k q)) = _
  obtain ⟨-, -, -, -, -, -, r0, r1, a0, a1, b0, b1, -⟩ := blockIndex_facts t
  refine congrArg (V c main_v7) (Cert.LibMatmulFin.idx2_ext _ _ ?_ ?_)
  · show win2_4.index t (0 : Fin 2) * 128 + 1 * k.val = k.val
    omega
  · show win2_4.index t (1 : Fin 2) * 128 + 1 * q.val = q.val
    omega

/-- The relation-1 weights are handed over whole at every block. -/
theorem rel1Weights_read (c : Dev nD) (t : Fin cfg2.N) (k q : Fin 128) :
    iblk2 (F := Ideal) V c 5 t (ix2 k q) = V c main_v9 (ix2 k q) := by
  show V c main_v9 (((cfg2.win 5).blk t).view.emb (ix2 k q)) = _
  obtain ⟨-, -, -, -, -, -, r0, r1, a0, a1, b0, b1, -⟩ := blockIndex_facts t
  refine congrArg (V c main_v9) (Cert.LibMatmulFin.idx2_ext _ _ ?_ ?_)
  · show win2_5.index t (0 : Fin 2) * 128 + 1 * k.val = k.val
    omega
  · show win2_5.index t (1 : Fin 2) * 128 + 1 * q.val = q.val
    omega

/-- The bias row is handed over whole at every block. -/
theorem biasRow_read (c : Dev nD) (t : Fin cfg2.N) (q : Fin 128) :
    iblk2 (F := Ideal) V c 6 t (ix2 (0 : Fin 1) q) = V c main_v90 (ix2 (0 : Fin 1) q) := by
  show V c main_v90 (((cfg2.win 6).blk t).view.emb (ix2 (0 : Fin 1) q)) = _
  obtain ⟨-, -, -, -, -, -, -, -, -, -, -, -, b0, b1, -⟩ := blockIndex_facts t
  refine congrArg (V c main_v90) (Cert.LibMatmulFin.idx2_ext _ _ ?_ ?_)
  · show win2_6.index t (0 : Fin 2) * 1 + 1 * (0 : Fin 1).val = (0 : Fin 1).val
    omega
  · show win2_6.index t (1 : Fin 2) * 128 + 1 * q.val = q.val
    omega

/-- Entry `(p, q)` of the output's block `t` is entry `(2000·t + p, q)` of the output array. -/
theorem outBlock_emb (t : Fin cfg2.N) (p : Fin 2000) (q : Fin 128) :
    ((cfg2.win 7).blk t).view.emb (ix2 p q) = ix2 (blockRow t p) q := by
  obtain ⟨-, -, -, -, -, -, -, -, -, -, -, -, -, -, o0, o1⟩ := blockIndex_facts t
  refine Cert.LibMatmulFin.idx2_ext _ _ ?_ ?_
  · show win2_7.index t (0 : Fin 2) * 2000 + 1 * p.val = t.val * 2000 + p.val
    omega
  · show win2_7.index t (1 : Fin 2) * 128 + 1 * q.val = q.val
    omega

/-! ## Step 3: what block `t` writes back -/

/-- What block `t` writes back over its rows of the output array is block `t` of `combineLayer` of the
    arrays as the region finds them.  The body's one store covers its whole block, so the block holds
    the stored value; at `(p, q)` that is the three sums and the bias entry over the input blocks
    (`payload_apply`); each block entry is the array entry step 2 names; and the result is
    `combineLayer` at `(2000·t + p, q)`, which is where `(p, q)` of the output block goes. -/
theorem flushed_eq (c : Dev nD) (t : Fin cfg2.N) :
    (dat2 (F := Ideal) V c).flushed 7 t = ((cfg2.win 7).blk t).view.read (Elt Ideal)
      (Cert.Rgcn.combineLayer (V c main_v50) (V c main_v73) (V c main_v89) (V c main_arg6) (V c main_v7) (V c main_v9)
        (V c main_v90)) := by
  show (cfg2.win 7).cut (grid2.coords t) ((dat2 V c).after 7 t) = _
  rw [after2_7]
  unfold out2_7
  -- one store over the whole block leaves the stored value; a load of a whole block reads the block
  rw [View.canon_unit_zero zeroOffsets]
  simp only [View.ld_unit_zero (S := S2000x128) zeroOffsets, View.ld_unit_zero (S := S128x128) zeroOffsets,
    View.ld_unit_zero (S := S1x128) zeroOffsets]
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t)
      (iblk2 V c 5 t) (iblk2 V c 6 t) (ix2 p q)
    = Cert.Rgcn.combineLayer (V c main_v50) (V c main_v73) (V c main_v89) (V c main_arg6) (V c main_v7) (V c main_v9)
        (V c main_v90) (((cfg2.win 7).blk t).view.emb (ix2 p q))
  refine (payload_apply (iblk2 V c 0 t) (iblk2 V c 1 t) (iblk2 V c 2 t) (iblk2 V c 3 t) (iblk2 V c 4 t)
      (iblk2 V c 5 t) (iblk2 V c 6 t) p q).trans ?_
  rw [outBlock_emb t p q]
  refine Eq.trans ?_ (combineLayer_apply (V c main_v50) (V c main_v73) (V c main_v89) (V c main_arg6) (V c main_v7)
    (V c main_v9) (V c main_v90) (blockRow t p) q).symm
  -- the two sides are the same expression, summand by summand
  refine congrArg₂ (· + ·) (congrArg₂ (· + ·) (congrArg₂ (· + ·) ?_ ?_) ?_) (biasRow_read V c t q)
  · exact Finset.sum_congr rfl fun k _ => congrArg₂ (· * ·) (nodeBlock_read V c t p k) (rootWeights_read V c t k q)
  · exact Finset.sum_congr rfl fun k _ => congrArg₂ (· * ·) (mean0Block_read V c t p k) (rel0Weights_read V c t k q)
  · exact Finset.sum_congr rfl fun k _ => congrArg₂ (· * ·) (mean1Block_read V c t p k) (rel1Weights_read V c t k q)

/-! ## Step 4: the blocks fill the array -/

/-- An entry of the output array lies in block `t` exactly when, on each axis, its coordinate lies
    in the block's range: from (block index) × (block size), for (block size) places. -/
theorem mem_block (t : Fin cfg2.N) (i : S100000x128.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole main_v91).slice (win2_7.rect t)).set ↔ _
  rw [View.set_slice_whole, Rect.mem_set_unit]
  exact Iff.rfl

/-- Every entry of the output array is written back by some block: row `r` lies in block `r / 2000`,
    since `2000·(r / 2000) ≤ r < 2000·(r / 2000) + 2000` and `r / 2000 < 50` for `r < 100000`; a block
    spans all 128 columns. -/
theorem blocks_cover (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have hN : cfg2.N = 50 := N_2
  refine ⟨⟨(i 0).val / 2000, by rw [hN]; omega⟩, flush2_7 _, ?_⟩
  rw [mem_block]
  obtain ⟨-, -, -, -, -, -, -, -, -, -, -, -, -, -, o0, o1⟩ := blockIndex_facts ⟨(i 0).val / 2000, by rw [hN]; omega⟩
  intro a
  match a with
  | ⟨0, _⟩ =>
    show win2_7.index _ (0 : Fin 2) * 2000 ≤ (i 0).val ∧ (i 0).val < win2_7.index _ (0 : Fin 2) * 2000 + 2000
    rw [o0]
    show (i 0).val / 2000 * 2000 ≤ (i 0).val ∧ (i 0).val < (i 0).val / 2000 * 2000 + 2000
    omega
  | ⟨1, _⟩ =>
    show win2_7.index _ (1 : Fin 2) * 128 ≤ (i 1).val ∧ (i 1).val < win2_7.index _ (1 : Fin 2) * 128 + 128
    rw [o1]
    omega

end Cert.Rgcn.Kernel.Second

namespace Cert.Rgcn.Kernel

open Idealize.ShloMosaic Idealize.ShloMosaic.TcCoe Idealize.SL.Sem
open Cert.KernelIdeal Cert.KernelIdeal.Gen

/-- THE SECOND GRAPH LAYER'S OUTPUT ARRAY.  Whatever the buffers hold when the region is entered
    (`V`), after its 50 blocks the output array is `combineLayer` of the node array, the two
    per-relation mean arrays, the root and per-relation weights and the bias row as the region found
    them: every block written back is a block of that one function (`flushed_eq`), and the blocks
    fill the array (`blocks_cover`). -/
theorem graphLayerSecond_array
    (V : (c : Dev nD) → (b : Ref sig .tc) → Buf (Elt Ideal) ((c : Thread nD τ).loc b)) (c : Dev nD) :
    (dat2 (F := Ideal) V c).arrAt 7 cfg2.N
      = Cert.Rgcn.combineLayer (V c main_v50) (V c main_v73) (V c main_v89) (V c main_arg6) (V c main_v7) (V c main_v9)
          (V c main_v90) :=
  (dat2 (F := Ideal) V c).arrAt_eq_of_cover 7 _ (fun t _ => Second.flushed_eq V c t) Second.blocks_cover

end Cert.Rgcn.Kernel

end
-- ==== Proof.OutputLayer.lean ====
/-
  The output layer's kernel, read as one function of whole arrays.

  The kernel walks the 100000 rows of the node array in 50 blocks of 2000 rows.  At each block it
  multiplies the block by the whole 128 × 3 weight matrix, adds the bias row to every row of the
  product, and writes the 2000 × 3 result over the same rows of the output array.  This file shows
  that the output array therefore ends as `Cert.Rgcn.outputLayer` of the three arrays the kernel
  reads: entry (r, q) is the sum over k of x(r, k) · w(k, q), plus b(0, q).

  The argument has three steps.
    1. One entry of what the body computes from a block, the weights and the bias: the finite sum
       over the shared axis plus the bias entry of the column (`outPayload_apply`).
    2. Block t of the node array is rows 2000·t … 2000·t + 1999 of that array, while the weight and
       bias blocks are the whole arrays; so what the body leaves at block t is the specification
       read through the output's block t (`outFlushed_eq`).
    3. Row r lies in block r / 2000, so the 50 blocks cover the output array (`outBlocks_cover`),
       and an array written block by block with the blocks of one function is that function.

  Everything is stated at arbitrary contents `V` of the buffers when the kernel is entered.
-/
import proofs.«120295_j19387482374387_1_alg».proof.Proof.Gen.KernelIdeal.Frame
import proofs.«120295_j19387482374387_1_alg».proof.Proof.Spec
import proofs.«120295_j19387482374387_1_alg».proof.Proof.LibMatmulFin
import Idealize.ShloMosaic.Lib.Pipeline.Value
import Idealize.ShloMosaic.Lib.ValueIdx
import Idealize.ShloMosaic.Lib.ValueLayout
import Idealize.ShloMosaic.PureOps.Ideal.Laws

noncomputable section

namespace Cert.Rgcn.Kernel

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Facts₀

/-! ## One entry of the body's arithmetic -/

/-- In the product of a 2000 × 128 block by the 128 × 3 weights, entry (p, q) at position `k` of the
    shared axis reads the left operand at (p, k): the row comes from the result's row, the column is
    the position along the contracted axis. -/
theorem outDot_left (p : Fin 2000) (q : Fin 3) (k : Fin 128) :
    dot_S2000x128_S128x3_S2000x3_1_0_0_1_n_n.lhsIdx (ix2 p q)
      ((contrEquiv1 dot_S2000x128_S128x3_S2000x3_1_0_0_1_n_n 128 rfl rfl).symm k) = ix2 p k := by
  refine Cert.LibMatmulFin.idx2_ext _ _ ?_ ?_
  · simp [DotDims.lhsIdx, dot_S2000x128_S128x3_S2000x3_1_0_0_1_n_n]; rfl
  · refine (DotDims.lhsIdx_val_of_single _ rfl _ _).trans ?_
    exact contrEquiv1_symm_val _ 128 rfl rfl k

/-- … and the right operand at (k, q): the row is the position along the contracted axis, the column
    comes from the result's column. -/
theorem outDot_right (p : Fin 2000) (q : Fin 3) (k : Fin 128) :
    dot_S2000x128_S128x3_S2000x3_1_0_0_1_n_n.rhsIdx (ix2 p q)
      ((contrEquiv1 dot_S2000x128_S128x3_S2000x3_1_0_0_1_n_n 128 rfl rfl).symm k) = ix2 k q := by
  refine Cert.LibMatmulFin.idx2_ext _ _ ?_ ?_
  · refine (DotDims.rhsIdx_val_of_single _ rfl _ _).trans ?_
    exact contrEquiv1_symm_val _ 128 rfl rfl k
  · simp [DotDims.rhsIdx, dot_S2000x128_S128x3_S2000x3_1_0_0_1_n_n]; rfl

/-- Entry (p, q) of what the body stores, from a block `x` of rows, the weights `w` and the bias row
    `b`: the sum over the shared axis of x(p, k) · w(k, q), plus b(0, q).  Over the extended reals the
    narrowing of the operands before the product changes nothing, a cast to the same shape is the
    identity, the product into a zero accumulator is the finite sum, and broadcasting the one bias row
    over the 2000 rows reads row 0 whatever the row. -/
theorem outPayload_apply (x : Vec Ideal S2000x128 .f32) (w : Vec Ideal S128x3 .f32) (b : Vec Ideal S1x3 .f32)
    (p : Fin 2000) (q : Fin 3) :
    k3_pay1 (F := Ideal) x w b (ix2 p q)
      = (∑ k : Fin 128, x (ix2 p k) * w (ix2 k q)) + b (ix2 (0 : Fin 1) q) := by
  unfold k3_pay1
  rw [addf_apply]
  refine congrArg₂ (· + ·) ?_ ?_
  · refine (Cert.LibMatmulFin.matmul_zero_apply_fin dot_S2000x128_S128x3_S2000x3_1_0_0_1_n_n 128 rfl rfl none _ _
      (ix2 p q) (fun k => ix2 p k) (fun k => ix2 k q) (outDot_left p q) (outDot_right p q)).trans ?_
    rw [shapeCast_self]
    rfl
  · refine (broadcastTo_1b_ab_apply _ _ p q).trans ?_
    rw [shapeCast_self]

/-- The specification at one entry, spelt out. -/
theorem outputLayer_apply (x : FVec Ideal S100000x128 .f32) (w : FVec Ideal S128x3 .f32) (b : FVec Ideal S1x3 .f32)
    (i : S100000x3.Idx) :
    Cert.Rgcn.outputLayer x w b i
      = (∑ k : Fin 128, x (ix2 (n0 := 100000) (i 0) k) * w (ix2 k (i 1))) + b (ix2 (0 : Fin 1) (i 1)) := rfl

/-! ## The blocks the body reads -/

-- the contents of the buffers when the kernel is entered: arbitrary throughout
variable (V : (c : Dev nD) → (b : Ref sig .tc) → Buf (Elt Ideal) ((c : Thread nD τ).loc b))

/-- The body's loads and its store start at offset (0, 0) of their blocks. -/
theorem zeroOffsets : (![0, 0] : Fin 2 → Nat) = fun _ => 0 := funext fun a => by fin_cases a <;> rfl

/-- Which block of each array grid point `t` uses, checked at each of the 50 points: the node array's
    and the output's block indices are (t, 0) — the same row block —, the weights' and the bias row's
    are (0, 0) at every point. -/
theorem outBlockIndex : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The node array's block at point `t`, at (y₀, y₁), is the array at (2000 · (row block of t) + y₀, y₁):
    an element of a block sits at block index × block size + its place inside the block, axis by axis. -/
theorem outRows_apply (c : Dev nD) (t : Fin cfg3.N) (y : S2000x128.Idx) (i : S100000x128.Idx)
    (h0 : (i 0).val = win3_3.index t (0 : Fin 2) * 2000 + (y 0).val) (h1 : (i 1).val = (y 1).val) :
    (iblk3 (F := Ideal) V c 0 t : Vec Ideal S2000x128 .f32) y = (V c main_v91 : S100000x128.Idx → EReal) i := by
  obtain ⟨e0, e1, -⟩ := outBlockIndex t
  unfold iblk3
  rw [View.read_apply]
  show (V c main_v91 : S100000x128.Idx → EReal) _ = _
  refine congrArg _ (funext fun a => Fin.ext ?_)
  match a with
  | ⟨0, _⟩ => show win3_0.index t (0 : Fin 2) * 2000 + 1 * (y 0).val = (i 0).val; rw [e0, h0]; omega
  | ⟨1, _⟩ => show win3_0.index t (1 : Fin 2) * 128 + 1 * (y 1).val = (i 1).val; rw [e1, h1]; omega

/-- The weights' block at any point is the whole weight matrix. -/
theorem outWeights_apply (c : Dev nD) (t : Fin cfg3.N) (y : S128x3.Idx) :
    (iblk3 (F := Ideal) V c 1 t : Vec Ideal S128x3 .f32) y = (V c main_arg8 : S128x3.Idx → EReal) y := by
  obtain ⟨-, -, e0, e1, -⟩ := outBlockIndex t
  unfold iblk3
  rw [View.read_apply]
  show (V c main_arg8 : S128x3.Idx → EReal) _ = _
  refine congrArg _ (funext fun a => Fin.ext ?_)
  match a with
  | ⟨0, _⟩ => show win3_1.index t (0 : Fin 2) * 128 + 1 * (y 0).val = (y 0).val; rw [e0]; omega
  | ⟨1, _⟩ => show win3_1.index t (1 : Fin 2) * 3 + 1 * (y 1).val = (y 1).val; rw [e1]; omega

/-- The bias block at any point is the whole bias row. -/
theorem outBias_apply (c : Dev nD) (t : Fin cfg3.N) (y : S1x3.Idx) :
    (iblk3 (F := Ideal) V c 2 t : Vec Ideal S1x3 .f32) y = (V c main_v92 : S1x3.Idx → EReal) y := by
  obtain ⟨-, -, -, -, e0, e1, -⟩ := outBlockIndex t
  unfold iblk3
  rw [View.read_apply]
  show (V c main_v92 : S1x3.Idx → EReal) _ = _
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 3 + 1 * (y 1).val = (y 1).val; rw [e1]; omega

/-! ## What one grid point writes back -/

/-- Point `t` writes back block `t` of the specification.  Entry (p, q) of the stored block is the sum
    over k of (row block t of x)(p, k) · w(k, q) plus b(0, q) (`outPayload_apply`); the output's block
    `t` puts that entry at row 2000·t + p, column q of the array; and row p of x's block `t` is row
    2000·t + p of x — the same row block —, so the two sums agree term by term. -/
theorem outFlushed_eq (c : Dev nD) (t : Fin cfg3.N) :
    (dat3 (F := Ideal) V c).flushed 3 t
      = ((cfg3.win 3).blk t).view.read (Elt Ideal)
          (Cert.Rgcn.outputLayer (V c main_v91) (V c main_arg8) (V c main_v92)) := by
  show (cfg3.win 3).cut (grid3.coords t) ((dat3 (F := Ideal) V c).after 3 t) = _
  rw [after3_3]
  unfold out3_3
  rw [View.canon_unit_zero zeroOffsets]
  simp only [View.ld_unit_zero (S := S2000x128) zeroOffsets, View.ld_unit_zero (S := S128x3) zeroOffsets,
    View.ld_unit_zero (S := S1x3) zeroOffsets]
  funext j
  obtain ⟨p, q, rfl⟩ : ∃ (p : Fin 2000) (q : Fin 3), j = ix2 p q := ⟨j 0, j 1, eq_ix2 j⟩
  obtain ⟨-, -, -, -, -, -, -, e1⟩ := outBlockIndex t
  show k3_pay1 (F := Ideal) (iblk3 V c 0 t) (iblk3 V c 1 t) (iblk3 V c 2 t) (ix2 p q) = _
  refine (outPayload_apply (iblk3 V c 0 t) (iblk3 V c 1 t) (iblk3 V c 2 t) p q).trans ?_
  show _ = Cert.Rgcn.outputLayer (V c main_v91) (V c main_arg8) (V c main_v92)
    (((cfg3.win 3).blk t).view.emb (ix2 p q))
  rw [outputLayer_apply]
  -- the output block spans all 3 columns: column q of the block is column q of the array
  have hq : q.val = (((cfg3.win 3).blk t).view.emb (ix2 p q) 1).val := by
    show q.val = win3_3.index t (1 : Fin 2) * 3 + 1 * q.val
    rw [e1]; omega
  refine congrArg₂ (· + ·) (Finset.sum_congr rfl fun k _ => congrArg₂ (· * ·) ?_ ?_) ?_
  · exact outRows_apply V c t (ix2 p k) _
      (by show win3_3.index t (0 : Fin 2) * 2000 + 1 * p.val = win3_3.index t (0 : Fin 2) * 2000 + p.val; omega) rfl
  · exact (outWeights_apply V c t (ix2 k q)).trans
      (congrArg (V c main_arg8 : S128x3.Idx → EReal) (Cert.LibMatmulFin.idx2_ext _ _ rfl hq))
  · exact (outBias_apply V c t (ix2 0 q)).trans
      (congrArg (V c main_v92 : S1x3.Idx → EReal) (Cert.LibMatmulFin.idx2_ext _ _ rfl hq))

/-! ## The blocks cover the array -/

/-- An entry of the output array lies in point `t`'s block exactly when, on each axis, its coordinate
    is in the block's range: block index × block size up to that plus the block size. -/
theorem mem_outBlock (t : Fin cfg3.N) (i : S100000x3.Idx) :
    i ∈ ((cfg3.win 3).blk t).view.set
      ↔ ∀ a : Fin 2, win3_3.index t a * S2000x3.size a ≤ (i a).val
          ∧ (i a).val < win3_3.index t a * S2000x3.size a + S2000x3.size a := by
  show i ∈ ((View.whole main_v93).slice (win3_3.rect t)).set ↔ _
  rw [View.set_slice_whole, Rect.mem_set_unit]
  exact Iff.rfl

/-- Every entry is written: row r is in block r / 2000 (and 100000 = 50 · 2000 rows make 50 blocks),
    every block spans all 3 columns, and every point writes its block back. -/
theorem outBlocks_cover (i : S100000x3.Idx) :
    ∃ t : Fin cfg3.N, (cfg3.win 3).flush t = true ∧ i ∈ ((cfg3.win 3).blk t).view.set := by
  have h0 : (i 0).val < 100000 := idx2_lt0 i
  have h1 : (i 1).val < 3 := idx2_lt1 i
  have hN : cfg3.N = 50 := N_3
  let t : Fin cfg3.N := ⟨(i 0).val / 2000, by rw [hN]; omega⟩
  obtain ⟨-, -, -, -, -, -, e0, e1⟩ := outBlockIndex t
  have ht : t.val = (i 0).val / 2000 := rfl
  refine ⟨t, flush3_3 t, ?_⟩
  rw [mem_outBlock]
  intro a
  match a with
  | ⟨0, _⟩ =>
    show win3_3.index t (0 : Fin 2) * 2000 ≤ (i 0).val ∧ (i 0).val < win3_3.index t (0 : Fin 2) * 2000 + 2000
    rw [e0, ht]; omega
  | ⟨1, _⟩ =>
    show win3_3.index t (1 : Fin 2) * 3 ≤ (i 1).val ∧ (i 1).val < win3_3.index t (1 : Fin 2) * 3 + 3
    rw [e1]; omega

/-! ## The whole array -/

/-- THE OUTPUT LAYER'S KERNEL: after its 50 points the output array is `x · w + b` of the node array,
    the weights and the bias row as the kernel found them — each point writes its block of that
    function, and the blocks cover the array. -/
theorem outputLayer_array (c : Dev nD) :
    (dat3 (F := Ideal) V c).arrAt 3 cfg3.N
      = Cert.Rgcn.outputLayer (V c main_v91) (V c main_arg8) (V c main_v92) :=
  (dat3 (F := Ideal) V c).arrAt_eq_of_cover 3
    (Cert.Rgcn.outputLayer (V c main_v91) (V c main_arg8) (V c main_v92))
    (fun t _ => outFlushed_eq V c t) outBlocks_cover

end Cert.Rgcn.Kernel

end
-- ==== Proof.KernelGlue.lean ====
/-
  The host side of the kernel's program: what every array that one of its four regions reads holds at the
  moment that region is entered.

  The program runs four pipelined regions (the input layer, the graph layer twice, the output layer) among
  stretches of whole-array host operations.  A stretch writes each of its results to a buffer of its own,
  once, so the contents of a buffer at a region's entry can be read off by walking the stretch backwards:
  at the operation that produced the buffer one finds that operation's function applied to the contents of
  its operand buffers, and at every other operation the buffer is as it was.  A region in turn leaves every
  array it does not write as it found it, and leaves its output array at what its write-backs add up to.

  Walking back in this way from a region's entry ends either at the launch memory (an argument of the
  program) or at the output array of the region before.  What is met on the way is, operation for
  operation, one of the host chains that the statement of the network names:

    * a bias vector of length M recast as a 1 × M matrix is `biasRow` of the vector;
    * row 0 / row 1 of the edge list, sliced and flattened, is `edgeEnds0` / `edgeEnds1`;
    * slice 0 / slice 1 of the stacked relation weights, flattened to a matrix, is `relWeight0` / `relWeight1`;
    * the chain  wrap the sources – gather the rows – mask by relation – scatter-add into the destinations –
      count – divide  is `relMean r` of the node array, the two edge-end lists and the edge types.

  None of these chains is opened: the operations met are literally the operations the definitions list, so
  each equation closes by unfolding the definitions' names and nothing below them.  The one fact with
  content is the first: where a recast vector puts its entries.
-/
import proofs.«120295_j19387482374387_1_alg».proof.Proof.Gen.KernelIdeal.Frame
import proofs.«120295_j19387482374387_1_alg».proof.Proof.Spec
import Idealize.ShloMosaic.Lib.StableHlo.Run
import Idealize.ShloMosaic.Lib.ValueLayout
import Idealize.ShloMosaic.Lib.ValueIdx
import Idealize.ShloMosaic.Lib.Pipeline.Value

noncomputable section

namespace Cert.Rgcn.Kernel

open Idealize.ShloMosaic Idealize.ShloMosaic.TcCoe Idealize.ShloMosaic.ValueIdx
open Cert.KernelIdeal Cert.KernelIdeal.Gen Cert.KernelIdeal.Facts₀

/- The launch memory, the generator registers (which no host operation reads), and the core. -/
variable (m : (ℓ : Loc nD τ sig) → Buf (Elt Ideal) ℓ) (ρ : Dev nD → PrngReg) (c : Dev nD)

/-! ## A bias vector as a one-row matrix -/

/-- Recasting a vector of length `M` as a `1 × M` matrix puts entry `j` of the vector at position `(0, j)`:
    that is `biasRow`.  (Row-major, position `(u, j)` of the matrix is element `u · M + j = j` of the vector,
    since the only row is `u = 0`.) -/
theorem shapeCast_eq_biasRow {M : Nat} (b : (⟨1, ![M]⟩ : Shape).Idx → EReal)
    (h : (⟨1, ![M]⟩ : Shape).ShapeCasts ⟨2, ![1, M]⟩) :
    shapeCast ⟨2, ![1, M]⟩ b h = Cert.Rgcn.biasRow b := by
  funext j
  calc shapeCast ⟨2, ![1, M]⟩ b h j
      = shapeCast ⟨2, ![1, M]⟩ b h (ix2 (j 0) (j 1)) := congrArg (shapeCast ⟨2, ![1, M]⟩ b h) (eq_ix2 j)
    _ = b (ix1 (j 1)) := shapeCast_a_1a_apply b h (j 0) (j 1)

/-! ## Notation: the program's arguments at launch, and the three intermediate node arrays -/

set_option quotPrecheck false
/-- The arguments as the launch memory holds them: the node features, the 2 × E edge list, the edge types,
    the input layer's weights and bias, the stacked relation weights, the root weights and the bias of the
    graph layer, the output layer's weights and bias. -/
local notation "arg0" => m ((c : Thread nD τ).loc main_arg0)
local notation "arg1" => m ((c : Thread nD τ).loc main_arg1)
local notation "arg2" => m ((c : Thread nD τ).loc main_arg2)
local notation "arg3" => m ((c : Thread nD τ).loc main_arg3)
local notation "arg4" => m ((c : Thread nD τ).loc main_arg4)
local notation "arg5" => m ((c : Thread nD τ).loc main_arg5)
local notation "arg6" => m ((c : Thread nD τ).loc main_arg6)
local notation "arg7" => m ((c : Thread nD τ).loc main_arg7)
local notation "arg8" => m ((c : Thread nD τ).loc main_arg8)
local notation "arg9" => m ((c : Thread nD τ).loc main_arg9)
/-- What the input layer's region, the first graph layer's and the second graph layer's leave in their
    output arrays: the write-backs of all grid points folded into the array as the region found it. -/
local notation "X0" => (dat0 (V1 m ρ) c).arrAt 3 cfg0.N
local notation "X1" => (dat1 (V7 m ρ) c).arrAt 7 cfg1.N
local notation "X2" => (dat2 (V13 m ρ) c).arrAt 7 cfg2.N

/-! ## Reading a buffer back through a stretch of host operations

Each of the four tactics below takes a goal "the buffer `r`, after the stretch before region k, holds …",
spells the stretch out as its list of operations, and walks that list backwards from `r`: the operation
whose result buffer is `r` contributes its function applied to what its operand buffers held (and the walk
goes on from each of those), every other operation leaves `r` alone (two literal buffer names are told
apart by deciding their inequality).  What remains mentions only the buffers as they were BEFORE the
stretch.  (A stretch before a graph layer comes in five pieces, each of its two `where` selections being a
call of its own; the five are read as one.) -/

/-- Back through the stretch before the input layer, to the launch memory. -/
local macro "read_stretch0" : tactic => `(tactic| (
  show StableHlo.after hostOps0 (W0 _ _ _) _ = _
  simp only [hostOps0]
  after_results_simp))

/-- Back through the stretch between the input layer and the first graph layer. -/
local macro "read_stretch1" : tactic => `(tactic| (
  show StableHlo.after hostOps1_4 (StableHlo.after hostOps1_3 (StableHlo.after hostOps1_2
        (StableHlo.after hostOps1_1 (StableHlo.after hostOps1 (W2 _ _ _))))) _ = _
  simp only [hostOps1, hostOps1_1, hostOps1_2, hostOps1_3, hostOps1_4]
  after_results_simp))

/-- Back through the stretch between the two graph layers. -/
local macro "read_stretch2" : tactic => `(tactic| (
  show StableHlo.after hostOps2_4 (StableHlo.after hostOps2_3 (StableHlo.after hostOps2_2
        (StableHlo.after hostOps2_1 (StableHlo.after hostOps2 (W8 _ _ _))))) _ = _
  simp only [hostOps2, hostOps2_1, hostOps2_2, hostOps2_3, hostOps2_4]
  after_results_simp))

/-- Back through the stretch between the second graph layer and the output layer. -/
local macro "read_stretch3" : tactic => `(tactic| (
  show StableHlo.after hostOps3 (W14 _ _ _) _ = _
  simp only [hostOps3]
  after_results_simp))

/-! ## From the launch to the input layer

The first stretch cuts the edge list in its two rows and recasts the input layer's bias as a row; it
writes no argument. -/

/-- No operation before the input layer writes an argument: each still holds its launch contents. -/
theorem W1_arg {r : Ref sig .tc}
    (hr : r ∈ [main_arg0, main_arg2, main_arg3, main_arg5, main_arg6, main_arg7, main_arg8, main_arg9]) :
    W1 m ρ c (Proc.devRef .tc r) = m ((c : Thread nD τ).loc r) := by
  simp only [List.mem_cons, List.not_mem_nil, or_false] at hr
  rcases hr with rfl | rfl | rfl | rfl | rfl | rfl | rfl | rfl <;> (read_stretch0 <;> rfl)

/-- Row 0 of the edge list, flattened: the edges' sources. -/
theorem W1_v1 : W1 m ρ c (Proc.devRef .tc main_v1) = edgeEnds0 arg1 := by
  read_stretch0
  rfl

/-- Row 1 of the edge list, flattened: the edges' destinations. -/
theorem W1_v3 : W1 m ρ c (Proc.devRef .tc main_v3) = edgeEnds1 arg1 := by
  read_stretch0
  rfl

/-- The input layer's bias as a row. -/
theorem W1_v4 : W1 m ρ c (Proc.devRef .tc main_v4) = Cert.Rgcn.biasRow arg4 := by
  read_stretch0
  exact shapeCast_eq_biasRow _ _

/-- **At the entry of the input layer**: the features and the weights are the arguments, the bias row is
    `biasRow` of the bias argument. -/
theorem entry0 :
    V1 m ρ c main_arg0 = arg0 ∧
    V1 m ρ c main_arg3 = arg3 ∧
    V1 m ρ c main_v4 = Cert.Rgcn.biasRow arg4 :=
  ⟨W1_arg m ρ c (r := main_arg0) (by decide), W1_arg m ρ c (r := main_arg3) (by decide), W1_v4 m ρ c⟩

/-! ## Across the input layer's region

The region writes its output array and nothing else. -/

/-- The input layer's output array holds what the region leaves there. -/
theorem W2_v5 : W2 m ρ c (Proc.devRef .tc main_v5) = X0 :=
  W2_arr m ρ c 3

/-- The edges' sources, untouched by the region. -/
theorem W2_v1 : W2 m ρ c (Proc.devRef .tc main_v1) = edgeEnds0 arg1 :=
  (W2_of_ne m ρ c main_v1 (by decide)).trans (W1_v1 m ρ c)

/-- The edges' destinations, untouched by the region. -/
theorem W2_v3 : W2 m ρ c (Proc.devRef .tc main_v3) = edgeEnds1 arg1 :=
  (W2_of_ne m ρ c main_v3 (by decide)).trans (W1_v3 m ρ c)

/-- The arguments the region does not read, untouched by it. -/
theorem W2_arg {r : Ref sig .tc} (hr : r ∈ [main_arg2, main_arg5, main_arg6, main_arg7, main_arg8, main_arg9]) :
    W2 m ρ c (Proc.devRef .tc r) = m ((c : Thread nD τ).loc r) := by
  have h1 : W1 m ρ c (Proc.devRef .tc r) = m ((c : Thread nD τ).loc r) := W1_arg m ρ c (by
    simp only [List.mem_cons, List.not_mem_nil, or_false] at hr ⊢
    rcases hr with rfl | rfl | rfl | rfl | rfl | rfl <;> decide)
  refine (W2_of_ne m ρ c r ?_).trans h1
  simp only [List.mem_cons, List.not_mem_nil, or_false] at hr
  rcases hr with rfl | rfl | rfl | rfl | rfl | rfl <;> decide

/-! ## From the input layer to the first graph layer

This stretch cuts the stacked relation weights in two, and for each of the two relations runs the chain
gather – mask – scatter-add – count – divide on the input layer's output; it ends by recasting the graph
layer's bias as a row.  It writes no argument, neither edge-end list, and not the input layer's output. -/

/-- What the stretch only reads it leaves alone: the input layer's output, the two edge-end lists, the
    arguments. -/
theorem W7_kept {r : Ref sig .tc}
    (hr : r ∈ [main_v5, main_v1, main_v3, main_arg2, main_arg6, main_arg7, main_arg8, main_arg9]) :
    W7 m ρ c (Proc.devRef .tc r) = W2 m ρ c (Proc.devRef .tc r) := by
  simp only [List.mem_cons, List.not_mem_nil, or_false] at hr
  rcases hr with rfl | rfl | rfl | rfl | rfl | rfl | rfl | rfl <;> read_stretch1

/-- The first graph layer reads the input layer's output array. -/
theorem W7_v5 : W7 m ρ c (Proc.devRef .tc main_v5) = X0 :=
  (W7_kept m ρ c (r := main_v5) (by decide)).trans (W2_v5 m ρ c)

theorem W7_v1 : W7 m ρ c (Proc.devRef .tc main_v1) = edgeEnds0 arg1 :=
  (W7_kept m ρ c (r := main_v1) (by decide)).trans (W2_v1 m ρ c)

theorem W7_v3 : W7 m ρ c (Proc.devRef .tc main_v3) = edgeEnds1 arg1 :=
  (W7_kept m ρ c (r := main_v3) (by decide)).trans (W2_v3 m ρ c)

/-- The arguments still needed from here on: the edge types, the root weights, the graph layer's bias, the
    output layer's weights and bias. -/
theorem W7_arg {r : Ref sig .tc} (hr : r ∈ [main_arg2, main_arg6, main_arg7, main_arg8, main_arg9]) :
    W7 m ρ c (Proc.devRef .tc r) = m ((c : Thread nD τ).loc r) := by
  simp only [List.mem_cons, List.not_mem_nil, or_false] at hr
  rcases hr with rfl | rfl | rfl | rfl | rfl
  · exact (W7_kept m ρ c (r := main_arg2) (by decide)).trans (W2_arg m ρ c (by decide))
  · exact (W7_kept m ρ c (r := main_arg6) (by decide)).trans (W2_arg m ρ c (by decide))
  · exact (W7_kept m ρ c (r := main_arg7) (by decide)).trans (W2_arg m ρ c (by decide))
  · exact (W7_kept m ρ c (r := main_arg8) (by decide)).trans (W2_arg m ρ c (by decide))
  · exact (W7_kept m ρ c (r := main_arg9) (by decide)).trans (W2_arg m ρ c (by decide))

/-- Relation 0's weights: slice 0 of the stacked relation weights, flattened to a matrix. -/
theorem W7_v7 : W7 m ρ c (Proc.devRef .tc main_v7) = relWeight0 arg5 := by
  read_stretch1
  rw [W2_arg m ρ c (r := main_arg5) (by decide)]
  rfl

/-- Relation 1's weights: slice 1. -/
theorem W7_v9 : W7 m ρ c (Proc.devRef .tc main_v9) = relWeight1 arg5 := by
  read_stretch1
  rw [W2_arg m ρ c (r := main_arg5) (by decide)]
  rfl

/-- The mean over relation 0's incoming edges of the input layer's rows.  Walking back from the quotient one
    meets, in this order: the scatter-add of the masked gathered rows into a zero array, the mask
    (edge type = 0) spread over the row, the gather at the wrapped sources, and under the quotient the
    edge count (the scatter-add of the mask as 0/1) raised to at least one and spread over the row — the
    operations of `relMean 0`, one for one. -/
theorem W7_v32 : W7 m ρ c (Proc.devRef .tc main_v32)
    = Cert.Rgcn.relMean 0#32 X0 (edgeEnds0 arg1) (edgeEnds1 arg1) arg2 := by
  read_stretch1
  rw [W2_v5 m ρ c, W2_v1 m ρ c, W2_v3 m ρ c, W2_arg m ρ c (r := main_arg2) (by decide)]
  rfl

/-- The same for relation 1 (edge type = 1); it gathers the same rows. -/
theorem W7_v48 : W7 m ρ c (Proc.devRef .tc main_v48)
    = Cert.Rgcn.relMean 1#32 X0 (edgeEnds0 arg1) (edgeEnds1 arg1) arg2 := by
  read_stretch1
  rw [W2_v5 m ρ c, W2_v1 m ρ c, W2_v3 m ρ c, W2_arg m ρ c (r := main_arg2) (by decide)]
  rfl

/-- The graph layer's bias as a row. -/
theorem W7_v49 : W7 m ρ c (Proc.devRef .tc main_v49) = Cert.Rgcn.biasRow arg7 := by
  read_stretch1
  rw [W2_arg m ρ c (r := main_arg7) (by decide)]
  exact shapeCast_eq_biasRow _ _

/-- **At the entry of the first graph layer**: the node array is the input layer's output; the two
    neighbour means are `relMean 0` and `relMean 1` of it over the edge list's two rows and the edge types;
    the root weights are the argument, the relation weights its two slices, the bias row `biasRow` of the
    bias argument. -/
theorem entry1 :
    V7 m ρ c main_v5 = X0 ∧
    V7 m ρ c main_v32 = Cert.Rgcn.relMean 0#32 X0 (edgeEnds0 arg1) (edgeEnds1 arg1) arg2 ∧
    V7 m ρ c main_v48 = Cert.Rgcn.relMean 1#32 X0 (edgeEnds0 arg1) (edgeEnds1 arg1) arg2 ∧
    V7 m ρ c main_arg6 = arg6 ∧
    V7 m ρ c main_v7 = relWeight0 arg5 ∧
    V7 m ρ c main_v9 = relWeight1 arg5 ∧
    V7 m ρ c main_v49 = Cert.Rgcn.biasRow arg7 :=
  ⟨W7_v5 m ρ c, W7_v32 m ρ c, W7_v48 m ρ c, W7_arg m ρ c (r := main_arg6) (by decide),
    W7_v7 m ρ c, W7_v9 m ρ c, W7_v49 m ρ c⟩

/-! ## Across the first graph layer's region

The region writes its output array only.  Three of the arrays it READS are needed again by the second
graph layer (the root weights and the two relation weights: the second stretch does not recompute them);
an array a region only reads comes out as it went in. -/

/-- The first graph layer's output array holds what the region leaves there. -/
theorem W8_v50 : W8 m ρ c (Proc.devRef .tc main_v50) = X1 :=
  W8_arr m ρ c 7

theorem W8_v1 : W8 m ρ c (Proc.devRef .tc main_v1) = edgeEnds0 arg1 :=
  (W8_of_ne m ρ c main_v1 (by decide)).trans (W7_v1 m ρ c)

theorem W8_v3 : W8 m ρ c (Proc.devRef .tc main_v3) = edgeEnds1 arg1 :=
  (W8_of_ne m ρ c main_v3 (by decide)).trans (W7_v3 m ρ c)

/-- The arguments the region does not read. -/
theorem W8_arg {r : Ref sig .tc} (hr : r ∈ [main_arg2, main_arg7, main_arg8, main_arg9]) :
    W8 m ρ c (Proc.devRef .tc r) = m ((c : Thread nD τ).loc r) := by
  simp only [List.mem_cons, List.not_mem_nil, or_false] at hr
  rcases hr with rfl | rfl | rfl | rfl
  · exact (W8_of_ne m ρ c main_arg2 (by decide)).trans (W7_arg m ρ c (by decide))
  · exact (W8_of_ne m ρ c main_arg7 (by decide)).trans (W7_arg m ρ c (by decide))
  · exact (W8_of_ne m ρ c main_arg8 (by decide)).trans (W7_arg m ρ c (by decide))
  · exact (W8_of_ne m ρ c main_arg9 (by decide)).trans (W7_arg m ρ c (by decide))

/-- The root weights: the region's fourth input, left as entered. -/
theorem W8_arg6 : W8 m ρ c (Proc.devRef .tc main_arg6) = arg6 :=
  (W8_arr m ρ c 3).trans (((dat1 (V7 m ρ) c).arrAt_in 3 rfl _).trans
    ((A_eq1 (V7 m ρ) c 3).trans (W7_arg m ρ c (r := main_arg6) (by decide))))

/-- Relation 0's weights: the region's fifth input, left as entered. -/
theorem W8_v7 : W8 m ρ c (Proc.devRef .tc main_v7) = relWeight0 arg5 :=
  (W8_arr m ρ c 4).trans (((dat1 (V7 m ρ) c).arrAt_in 4 rfl _).trans
    ((A_eq1 (V7 m ρ) c 4).trans (W7_v7 m ρ c)))

/-- Relation 1's weights: the region's sixth input, left as entered. -/
theorem W8_v9 : W8 m ρ c (Proc.devRef .tc main_v9) = relWeight1 arg5 :=
  (W8_arr m ρ c 5).trans (((dat1 (V7 m ρ) c).arrAt_in 5 rfl _).trans
    ((A_eq1 (V7 m ρ) c 5).trans (W7_v9 m ρ c)))

/-! ## From the first graph layer to the second

The same chain per relation, now on the first graph layer's output, and the same bias recast. -/

/-- What the stretch only reads, or does not touch at all, it leaves alone. -/
theorem W13_kept {r : Ref sig .tc}
    (hr : r ∈ [main_v50, main_arg6, main_v7, main_v9, main_arg8, main_arg9]) :
    W13 m ρ c (Proc.devRef .tc r) = W8 m ρ c (Proc.devRef .tc r) := by
  simp only [List.mem_cons, List.not_mem_nil, or_false] at hr
  rcases hr with rfl | rfl | rfl | rfl | rfl | rfl <;> read_stretch2

/-- The second graph layer reads the first one's output array. -/
theorem W13_v50 : W13 m ρ c (Proc.devRef .tc main_v50) = X1 :=
  (W13_kept m ρ c (r := main_v50) (by decide)).trans (W8_v50 m ρ c)

theorem W13_arg6 : W13 m ρ c (Proc.devRef .tc main_arg6) = arg6 :=
  (W13_kept m ρ c (r := main_arg6) (by decide)).trans (W8_arg6 m ρ c)

theorem W13_v7 : W13 m ρ c (Proc.devRef .tc main_v7) = relWeight0 arg5 :=
  (W13_kept m ρ c (r := main_v7) (by decide)).trans (W8_v7 m ρ c)

theorem W13_v9 : W13 m ρ c (Proc.devRef .tc main_v9) = relWeight1 arg5 :=
  (W13_kept m ρ c (r := main_v9) (by decide)).trans (W8_v9 m ρ c)

/-- The output layer's weights and bias, still as launched. -/
theorem W13_arg {r : Ref sig .tc} (hr : r ∈ [main_arg8, main_arg9]) :
    W13 m ρ c (Proc.devRef .tc r) = m ((c : Thread nD τ).loc r) := by
  simp only [List.mem_cons, List.not_mem_nil, or_false] at hr
  rcases hr with rfl | rfl
  · exact (W13_kept m ρ c (r := main_arg8) (by decide)).trans (W8_arg m ρ c (by decide))
  · exact (W13_kept m ρ c (r := main_arg9) (by decide)).trans (W8_arg m ρ c (by decide))

/-- The mean over relation 0's incoming edges of the first graph layer's rows: the operations of
    `relMean 0` again, one for one, on the new node array. -/
theorem W13_v73 : W13 m ρ c (Proc.devRef .tc main_v73)
    = Cert.Rgcn.relMean 0#32 X1 (edgeEnds0 arg1) (edgeEnds1 arg1) arg2 := by
  read_stretch2
  rw [W8_v50 m ρ c, W8_v1 m ρ c, W8_v3 m ρ c, W8_arg m ρ c (r := main_arg2) (by decide)]
  rfl

/-- The same for relation 1. -/
theorem W13_v89 : W13 m ρ c (Proc.devRef .tc main_v89)
    = Cert.Rgcn.relMean 1#32 X1 (edgeEnds0 arg1) (edgeEnds1 arg1) arg2 := by
  read_stretch2
  rw [W8_v50 m ρ c, W8_v1 m ρ c, W8_v3 m ρ c, W8_arg m ρ c (r := main_arg2) (by decide)]
  rfl

/-- The graph layer's bias as a row, recast a second time from the same argument. -/
theorem W13_v90 : W13 m ρ c (Proc.devRef .tc main_v90) = Cert.Rgcn.biasRow arg7 := by
  read_stretch2
  rw [W8_arg m ρ c (r := main_arg7) (by decide)]
  exact shapeCast_eq_biasRow _ _

/-- **At the entry of the second graph layer**: as at the first, with the first graph layer's output for
    the node array. -/
theorem entry2 :
    V13 m ρ c main_v50 = X1 ∧
    V13 m ρ c main_v73 = Cert.Rgcn.relMean 0#32 X1 (edgeEnds0 arg1) (edgeEnds1 arg1) arg2 ∧
    V13 m ρ c main_v89 = Cert.Rgcn.relMean 1#32 X1 (edgeEnds0 arg1) (edgeEnds1 arg1) arg2 ∧
    V13 m ρ c main_arg6 = arg6 ∧
    V13 m ρ c main_v7 = relWeight0 arg5 ∧
    V13 m ρ c main_v9 = relWeight1 arg5 ∧
    V13 m ρ c main_v90 = Cert.Rgcn.biasRow arg7 :=
  ⟨W13_v50 m ρ c, W13_v73 m ρ c, W13_v89 m ρ c, W13_arg6 m ρ c, W13_v7 m ρ c, W13_v9 m ρ c, W13_v90 m ρ c⟩

/-! ## Across the second graph layer's region, and on to the output layer

The region writes its output array only; the last stretch is one operation, the output layer's bias recast
as a row. -/

/-- The second graph layer's output array holds what the region leaves there. -/
theorem W14_v91 : W14 m ρ c (Proc.devRef .tc main_v91) = X2 :=
  W14_arr m ρ c 7

/-- The output layer's weights and bias: not among the region's arrays. -/
theorem W14_arg {r : Ref sig .tc} (hr : r ∈ [main_arg8, main_arg9]) :
    W14 m ρ c (Proc.devRef .tc r) = m ((c : Thread nD τ).loc r) := by
  simp only [List.mem_cons, List.not_mem_nil, or_false] at hr
  rcases hr with rfl | rfl
  · exact (W14_of_ne m ρ c main_arg8 (by decide)).trans (W13_arg m ρ c (by decide))
  · exact (W14_of_ne m ρ c main_arg9 (by decide)).trans (W13_arg m ρ c (by decide))

/-- The output layer reads the second graph layer's output array. -/
theorem W15_v91 : W15 m ρ c (Proc.devRef .tc main_v91) = X2 := by
  read_stretch3
  exact W14_v91 m ρ c

/-- The output layer's weights. -/
theorem W15_arg8 : W15 m ρ c (Proc.devRef .tc main_arg8) = arg8 := by
  read_stretch3
  exact W14_arg m ρ c (by decide)

/-- The output layer's bias as a row. -/
theorem W15_v92 : W15 m ρ c (Proc.devRef .tc main_v92) = Cert.Rgcn.biasRow arg9 := by
  read_stretch3
  rw [W14_arg m ρ c (r := main_arg9) (by decide)]
  exact shapeCast_eq_biasRow _ _

/-- **At the entry of the output layer**: the node array is the second graph layer's output, the weights
    are the argument, the bias row is `biasRow` of the bias argument. -/
theorem entry3 :
    V15 m ρ c main_v91 = X2 ∧
    V15 m ρ c main_arg8 = arg8 ∧
    V15 m ρ c main_v92 = Cert.Rgcn.biasRow arg9 :=
  ⟨W15_v91 m ρ c, W15_arg8 m ρ c, W15_v92 m ρ c⟩

end Cert.Rgcn.Kernel

end
-- ==== Proof.KernelValue.lean ====
/-
  The kernel program's result array is the network of its arguments.

  The result array is what the last launch (the output layer) leaves: the output layer's function of the arrays
  that launch reads.  Walking back through the program, each array a launch reads is either an argument as it was
  at the start, a host stretch's function of earlier arrays — a bias laid out as a row, a relation's weight
  matrix, a relation's neighbour means of the previous layer's output — or the previous launch's output array,
  which is that layer's function in turn.  Composing the four layers with the host stretches between them is
  the specification's network, term for term.
-/
import proofs.«120295_j19387482374387_1_alg».proof.Proof.Gen.KernelIdeal.Frame
import proofs.«120295_j19387482374387_1_alg».proof.Proof.Spec
import proofs.«120295_j19387482374387_1_alg».proof.Proof.InputLayer
import proofs.«120295_j19387482374387_1_alg».proof.Proof.GraphLayerFirst
import proofs.«120295_j19387482374387_1_alg».proof.Proof.GraphLayerSecond
import proofs.«120295_j19387482374387_1_alg».proof.Proof.OutputLayer
import proofs.«120295_j19387482374387_1_alg».proof.Proof.KernelGlue

noncomputable section

namespace Cert.Rgcn.Kernel

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The last boundary's contents at the result array: the output layer of the second graph layer of the first
    graph layer of the input layer of the features, every layer with the weights, bias and edge lists the
    arguments give it.  Each `rw` below replaces one launch's output array by its layer's function of the arrays
    the launch reads, and then each of those arrays by what the host stretch before the launch left in it. -/
theorem result_eq : W16 m ρ c (Proc.devRef .tc main_v93)
    = Cert.Rgcn.network (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9)) := by
  obtain ⟨a0, a3, a4⟩ := entry0 m ρ c
  obtain ⟨b0, b1, b2, b3, b4, b5, b6⟩ := entry1 m ρ c
  obtain ⟨c0, c1, c2, c3, c4, c5, c6⟩ := entry2 m ρ c
  obtain ⟨d0, d1, d2⟩ := entry3 m ρ c
  refine (W16_arr m ρ c 3).trans ?_
  rw [outputLayer_array, d0, d1, d2, graphLayerSecond_array, c0, c1, c2, c3, c4, c5, c6,
    graphLayerFirst_array, b0, b1, b2, b3, b4, b5, b6, inputLayer_array, a0, a3, a4]
  rfl

end Cert.Rgcn.Kernel

end
-- ==== Proof.RefTerm.lean ====
/-
  The reference program's result as ONE term of its argument arrays: its host operations composed in the
  order the program applies them, stage by stage.

  The input layer is the matrix product of the features with the input weights, plus the bias broadcast over
  the rows, through the leaky rectifier written as a selection on `y ≥ 0`.  A graph layer adds to the product
  with the root weights the bias and then, relation by relation, the product of that relation's neighbour
  means with its weights.  The neighbour means are the chain gather → mask → scatter-add / count → divide.
  The output layer is one more product plus bias.
-/
import proofs.«120295_j19387482374387_1_alg».proof.Proof.Gen.ReferenceIdeal
import Idealize.ShloMosaic.PureOps.Ideal

noncomputable section

namespace Cert.Rgcn.Reference

open Idealize.ShloMosaic Cert.ReferenceIdeal Cert.ReferenceIdeal.Facts₀

/-- The leaky rectifier as the reference spells it: where `x ≥ 0` the entry itself, elsewhere `a · x`. -/
def leakyRelu (x : FVec Ideal S100000x128 .f32) (a : FVec Ideal S_ .f32) : FVec Ideal S100000x128 .f32 :=
  select (cmpf .oge x (broadcastInDim S100000x128 ![] bcast_S_S100000x128 (constant (F := Ideal) S_ .f32 0x00000000#32)))
    x (mulf (broadcastInDim S100000x128 ![] bcast_S_S100000x128 (id a)) x)

/-- A bias vector broadcast over the rows of a 100000 × 128 array. -/
def biasRows (b : FVec Ideal S128 .f32) : FVec Ideal S100000x128 .f32 :=
  broadcastInDim S100000x128 ![0, 1] bcast_S1x128_S100000x128_0_1 (broadcastInDim S1x128 ![1] bcast_S128_S1x128_1 b)

/-- The input layer. -/
def inputLayer (feat : FVec Ideal S100000x16 .f32) (w : FVec Ideal S16x128 .f32) (b : FVec Ideal S128 .f32) :
    FVec Ideal S100000x128 .f32 :=
  leakyRelu (addf (Host.dotGeneral dot_S100000x16_S16x128_S100000x128_1_0_0_1_n_n none feat w) (biasRows b))
    (constant (F := Ideal) S_ .f32 0x3C23D70A#32)

/-- The sources and the destinations of the edges: the two rows of the edge list. -/
def edgeEnds0 (index : IVec S2x800000 32) : IVec S800000 32 :=
  shapeCast S800000 (extractStridedSlice S1x800000 ![0, 0] index slices_S2x800000_S1x800000_0_0) shapeCasts_S1x800000_S800000
def edgeEnds1 (index : IVec S2x800000 32) : IVec S800000 32 :=
  shapeCast S800000 (extractStridedSlice S1x800000 ![1, 0] index slices_S2x800000_S1x800000_1_0) shapeCasts_S1x800000_S800000

/-- One relation's weight matrix out of the stacked relation weights. -/
def relWeight0 (wrel : FVec Ideal S2x128x128 .f32) : FVec Ideal S128x128 .f32 :=
  shapeCast S128x128 (extractStridedSlice S1x128x128 ![0, 0, 0] wrel slices_S2x128x128_S1x128x128_0_0_0) shapeCasts_S1x128x128_S128x128
def relWeight1 (wrel : FVec Ideal S2x128x128 .f32) : FVec Ideal S128x128 .f32 :=
  shapeCast S128x128 (extractStridedSlice S1x128x128 ![1, 0, 0] wrel slices_S2x128x128_S1x128x128_1_0_0) shapeCasts_S1x128x128_S128x128

/-- The rows of `x` at the edges' sources (negative sources wrapped round by the number of nodes). -/
def gatherRows (x : FVec Ideal S100000x128 .f32) (src : IVec S800000 32) : FVec Ideal S800000x128 .f32 :=
  Host.gather gather_S100000x128_S800000x1_S800000x128_1_0_n_n_0_1_1128 x
    (broadcastInDim S800000x1 ![0] bcast_S800000_S800000x1_0
      (select (cmpi .slt src (broadcastInDim S800000 ![] bcast_S_S800000 (constantI S_ 32 0#32)))
        (addi src (broadcastInDim S800000 ![] bcast_S_S800000 (constantI S_ 32 100000#32))) src))

/-- Which edges carry relation `r`. -/
def relMask (r : BitVec 32) (etype : IVec S800000 32) : IVec S800000 1 :=
  cmpi .eq etype (broadcastInDim S800000 ![] bcast_S_S800000 (constantI S_ 32 r))

/-- The mean over the edges of relation `r` entering each node of the gathered rows `xs`. -/
def relMeanOf (r : BitVec 32) (xs : FVec Ideal S800000x128 .f32) (dst etype : IVec S800000 32) :
    FVec Ideal S100000x128 .f32 :=
  Host.divf (F := Ideal)
    (Host.scatterAdd scatter_S100000x128_S800000x1_S800000x128_1_0_0_1
      (broadcastInDim S100000x128 ![] bcast_S_S100000x128 (constant (F := Ideal) S_ .f32 0x00000000#32))
      (broadcastInDim S800000x1 ![0] bcast_S800000_S800000x1_0 dst)
      (select (broadcastInDim S800000x128 ![0, 1] bcast_S800000x1_S800000x128_0_1
                (broadcastInDim S800000x1 ![0] bcast_S800000_S800000x1_0 (relMask r etype)))
        xs
        (broadcastInDim S800000x128 ![] bcast_S_S800000x128 (id (constant (F := Ideal) S_ .f32 0x00000000#32)))))
    (broadcastInDim S100000x128 ![0, 1] bcast_S100000x1_S100000x128_0_1
      (broadcastInDim S100000x1 ![0] bcast_S100000_S100000x1_0
        (maximumf
          (Host.scatterAdd scatter_S100000_S800000x1_S800000_n_0_0_1
            (broadcastInDim S100000 ![] bcast_S_S100000 (constant (F := Ideal) S_ .f32 0x00000000#32))
            (broadcastInDim S800000x1 ![0] bcast_S800000_S800000x1_0 dst)
            (uitofp .f32 (relMask r etype)))
          (broadcastInDim S100000 ![] bcast_S_S100000 (constant (F := Ideal) S_ .f32 0x3F800000#32)))))

/-- One relational graph layer: root product plus bias, then relation 0's term, then relation 1's. -/
def graphLayer (x : FVec Ideal S100000x128 .f32) (src dst etype : IVec S800000 32)
    (wroot : FVec Ideal S128x128 .f32) (wrel : FVec Ideal S2x128x128 .f32) (b : FVec Ideal S128 .f32) :
    FVec Ideal S100000x128 .f32 :=
  addf
    (addf
      (addf (Host.dotGeneral dot_S100000x128_S128x128_S100000x128_1_0_0_1_n_n none x wroot) (biasRows b))
      (Host.dotGeneral dot_S100000x128_S128x128_S100000x128_1_0_0_1_n_n none
        (relMeanOf 0#32 (gatherRows x src) dst etype) (relWeight0 wrel)))
    (Host.dotGeneral dot_S100000x128_S128x128_S100000x128_1_0_0_1_n_n none
      (relMeanOf 1#32 (gatherRows x src) dst etype) (relWeight1 wrel))

/-- The output layer. -/
def outputLayer (x : FVec Ideal S100000x128 .f32) (w : FVec Ideal S128x3 .f32) (b : FVec Ideal S3 .f32) :
    FVec Ideal S100000x3 .f32 :=
  addf (Host.dotGeneral dot_S100000x128_S128x3_S100000x3_1_0_0_1_n_n none x w)
    (broadcastInDim S100000x3 ![0, 1] bcast_S1x3_S100000x3_0_1 (broadcastInDim S1x3 ![1] bcast_S3_S1x3_1 b))

/-- The reference's result: input layer, the graph layer twice, output layer. -/
def network (feat : FVec Ideal S100000x16 .f32) (index : IVec S2x800000 32) (etype : IVec S800000 32)
    (wIn : FVec Ideal S16x128 .f32) (bIn : FVec Ideal S128 .f32) (wRel : FVec Ideal S2x128x128 .f32)
    (wRoot : FVec Ideal S128x128 .f32) (bGraph : FVec Ideal S128 .f32) (wOut : FVec Ideal S128x3 .f32)
    (bOut : FVec Ideal S3 .f32) : FVec Ideal S100000x3 .f32 :=
  outputLayer
    (graphLayer
      (graphLayer (inputLayer feat wIn bIn) (edgeEnds0 index) (edgeEnds1 index) etype wRoot wRel bGraph)
      (edgeEnds0 index) (edgeEnds1 index) etype wRoot wRel bGraph)
    wOut bOut

end Cert.Rgcn.Reference

end
-- ==== Proof.ReferenceRun.lean ====
/-
  The reference program's run, read back as one term of its arguments.

  The reference is a host-only program: a straight line of tensor operations, five of them calls of small local
  functions (the leaky rectifier, which itself calls a selection, and four calls of a masked selection).  Unfolding each
  function at its call, over the buffers that call names, gives one list of 158 operations; the program is that list
  run in order.  Running a list of operations from given buffer contents is a fold: each operation rewrites its own
  result buffer with its function's value at its operands' current contents and leaves every other buffer alone.  So the
  contents of the result buffer at the end are obtained by substituting, innermost first, each operation's function for
  the buffer it wrote.

  The list is cut at the network's own layer boundaries into four stages.  A later stage reads an earlier one only
  through a few buffers: the current node features, the two edge-end vectors, and the arguments, which no operation
  writes.  For each stage we compute what it leaves in its result buffer as a function of what it found in the buffers
  it reads, and check that it leaves the other buffers of interest untouched; the four facts compose to
      output (graph (graph (input features) edges) edges),
  which is the network term of RefTerm.lean.  Finally the operational statement: every weakly fair execution of the
  program terminates with the result buffer holding that term of the launch contents of the arguments, and the
  arguments unchanged.
-/
import proofs.«120295_j19387482374387_1_alg».proof.Proof.RefTerm
import Idealize.ShloMosaic.Lib.StableHlo.Run

noncomputable section

namespace Cert.Rgcn.Reference

open Cert.ReferenceIdeal Cert.ReferenceIdeal.Facts₀ Idealize.ShloMosaic Idealize.ShloMosaic.TcCoe Idealize.SL.Sem Idealize.ShloMosaic.StableHlo

/-! ## The program as a list of operations

The lists are stated for any float values `F`: the operations' functions are the same for every choice, and the
program's text is compared with the list before the values are fixed.  The values are the extended reals from the
stage lemmas on. -/

variable {F : FTy → Type} [FloatOps F]

/-! The operands of the five calls, as references carrying the type of the tensor they hold: a function's body is
    written over such typed references, and unfolding it at a call site puts these in place of its parameters. -/

/- call 0, the leaky rectifier: the pre-activation and the slope -/
abbrev call0_arg0 : TRef sig ⟨S100000x128, .f32⟩ := .of main_v7
abbrev call0_arg1 : TRef sig ⟨S_, .f32⟩ := .of main_cst

/- call 1, layer 1, relation 0: the mask column, the gathered rows, the zero -/
abbrev call1_arg0 : TRef sig ⟨S800000x1, .i1⟩ := .of main_v22
abbrev call1_arg1 : TRef sig ⟨S800000x128, .f32⟩ := .of main_v19
abbrev call1_arg2 : TRef sig ⟨S_, .f32⟩ := .of main_cst_2

/- call 2, layer 1, relation 1 -/
abbrev call2_arg0 : TRef sig ⟨S800000x1, .i1⟩ := .of main_v42
abbrev call2_arg1 : TRef sig ⟨S800000x128, .f32⟩ := .of main_v19
abbrev call2_arg2 : TRef sig ⟨S_, .f32⟩ := .of main_cst_7

/- call 3, layer 2, relation 0 -/
abbrev call3_arg0 : TRef sig ⟨S800000x1, .i1⟩ := .of main_v73
abbrev call3_arg1 : TRef sig ⟨S800000x128, .f32⟩ := .of main_v70
abbrev call3_arg2 : TRef sig ⟨S_, .f32⟩ := .of main_cst_14

/- call 4, layer 2, relation 1 -/
abbrev call4_arg0 : TRef sig ⟨S800000x1, .i1⟩ := .of main_v93
abbrev call4_arg1 : TRef sig ⟨S800000x128, .f32⟩ := .of main_v70
abbrev call4_arg2 : TRef sig ⟨S_, .f32⟩ := .of main_cst_19

/-- Stage 1, sixteen operations: the edges' two ends, and the input layer
    `leakyRelu (features · W_in + b_in)`, whose result is `main_v8`. -/
abbrev opsInput : List (HloOp τ sig (Elt F)) :=
  [ -- the edge list's two rows, each flattened to a vector: the sources, then the destinations
    unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    -- the features times the input weights, plus the bias broadcast over the rows
    binary main_arg0 main_arg3 main_v4 (fun l r => Host.dotGeneral dot_S100000x16_S16x128_S100000x128_1_0_0_1_n_n none l r),
    unary main_arg4 main_v5 (broadcastInDim S1x128 ![1] bcast_S128_S1x128_1),
    unary main_v5 main_v6 (broadcastInDim S100000x128 ![0, 1] bcast_S1x128_S100000x128_0_1),
    binary main_v4 main_v6 main_v7 addf,
    -- the rectifier's slope, 0.01
    nullary main_cst (constant S_ .f32 0x3C23D70A#32),
    -- the leaky rectifier (its function's operations, over call 0's buffers): zero, broadcast; the comparison y ≥ 0;
    -- the slope converted to its own type (the identity), broadcast; slope · y; the selection between y and slope · y
    TRef.nullary main_call0.cst (constant S_ .f32 0x00000000#32),
    TRef.unary main_call0.cst main_call0.v0 (broadcastInDim S100000x128 ![] bcast_S_S100000x128),
    TRef.binary call0_arg0 main_call0.v0 main_call0.v1 (cmpf .oge),
    TRef.unary call0_arg1 main_call0.v2 id,
    TRef.unary main_call0.v2 main_call0.v3 (broadcastInDim S100000x128 ![] bcast_S_S100000x128),
    TRef.binary main_call0.v3 call0_arg0 main_call0.v4 mulf,
    TRef.ternary main_call0.v1 call0_arg0 main_call0.v4 main_call0.call0.v0 select ]

/-- Stage 2, sixty-nine operations: the first graph layer, reading the node features from `main_v8` and writing
    `main_v59`: `x · W_root + b`, then for each of the two relations `mean_r(x) · W_r` added on, where row `n` of
    `mean_r(x)` is the sum of the rows `x[src e]` over the edges `e` of relation `r` with `dst e = n`, divided by the
    number of those edges or by 1 when there is none. -/
abbrev opsLayer1 : List (HloOp τ sig (Elt F)) :=
  [ -- the node features times the root weights, plus the bias broadcast over the rows
    binary main_v8 main_arg6 main_v9 (fun l r => Host.dotGeneral dot_S100000x128_S128x128_S100000x128_1_0_0_1_n_n none l r),
    unary main_arg7 main_v10 (broadcastInDim S1x128 ![1] bcast_S128_S1x128_1),
    unary main_v10 main_v11 (broadcastInDim S100000x128 ![0, 1] bcast_S1x128_S100000x128_0_1),
    binary main_v9 main_v11 main_v12 addf,
    -- the edges' sources, a negative one wrapped round by the number of nodes (100000), as a column of indices
    nullary main_c (constantI S_ 32 0#32),
    unary main_c main_v13 (broadcastInDim S800000 ![] bcast_S_S800000),
    binary main_v1 main_v13 main_v14 (cmpi .slt),
    nullary main_c_0 (constantI S_ 32 100000#32),
    unary main_c_0 main_v15 (broadcastInDim S800000 ![] bcast_S_S800000),
    binary main_v1 main_v15 main_v16 addi,
    ternary main_v14 main_v16 main_v1 main_v17 select,
    unary main_v17 main_v18 (broadcastInDim S800000x1 ![0] bcast_S800000_S800000x1_0),
    -- the rows of the node features at those sources: one row per edge
    binary main_v8 main_v18 main_v19 (fun x i => Host.gather gather_S100000x128_S800000x1_S800000x128_1_0_n_n_0_1_1128 x i),
    -- relation 0: which edges carry it (the edge types compared with 0), as a column
    nullary main_c_1 (constantI S_ 32 0#32),
    unary main_c_1 main_v20 (broadcastInDim S800000 ![] bcast_S_S800000),
    binary main_arg2 main_v20 main_v21 (cmpi .eq),
    unary main_v21 main_v22 (broadcastInDim S800000x1 ![0] bcast_S800000_S800000x1_0),
    -- the gathered rows of those edges, zero on every other edge (the selection's function, over call 1's buffers:
    -- the zero converted to its own type, the mask broadcast across each row, the zero broadcast, the selection)
    nullary main_cst_2 (constant S_ .f32 0x00000000#32),
    TRef.unary call1_arg2 main_call1.v0 id,
    TRef.unary call1_arg0 main_call1.v1 (broadcastInDim S800000x128 ![0, 1] bcast_S800000x1_S800000x128_0_1),
    TRef.unary main_call1.v0 main_call1.v2 (broadcastInDim S800000x128 ![] bcast_S_S800000x128),
    TRef.ternary main_call1.v1 call1_arg1 main_call1.v2 main_call1.v3 select,
    -- their sum into each edge's destination node: scatter-add into an array of zeros
    nullary main_cst_3 (constant S_ .f32 0x00000000#32),
    unary main_cst_3 main_v24 (broadcastInDim S100000x128 ![] bcast_S_S100000x128),
    unary main_v3 main_v25 (broadcastInDim S800000x1 ![0] bcast_S800000_S800000x1_0),
    ternary main_v24 main_v25 main_v23 main_v26 (fun x i u => Host.scatterAdd scatter_S100000x128_S800000x1_S800000x128_1_0_0_1 x i u),
    -- the number of such edges entering each node: the mask as 0/1 reals, scatter-added into zeros
    unary main_v21 main_v27 (uitofp .f32),
    nullary main_cst_4 (constant S_ .f32 0x00000000#32),
    unary main_cst_4 main_v28 (broadcastInDim S100000 ![] bcast_S_S100000),
    unary main_v3 main_v29 (broadcastInDim S800000x1 ![0] bcast_S800000_S800000x1_0),
    ternary main_v28 main_v29 main_v27 main_v30 (fun x i u => Host.scatterAdd scatter_S100000_S800000x1_S800000_n_0_0_1 x i u),
    -- that count, at least 1, broadcast across each node's row
    nullary main_cst_5 (constant S_ .f32 0x3F800000#32),
    unary main_cst_5 main_v31 (broadcastInDim S100000 ![] bcast_S_S100000),
    binary main_v30 main_v31 main_v32 maximumf,
    unary main_v32 main_v33 (broadcastInDim S100000x1 ![0] bcast_S100000_S100000x1_0),
    unary main_v33 main_v34 (broadcastInDim S100000x128 ![0, 1] bcast_S100000x1_S100000x128_0_1),
    -- the mean: sum / max(count, 1)
    binary main_v26 main_v34 main_v35 Host.divf,
    -- relation 0's weight matrix out of the stacked weights
    unary main_arg5 main_v36 (extractStridedSlice S1x128x128 ![0, 0, 0] · slices_S2x128x128_S1x128x128_0_0_0),
    reshape main_v36 main_v37 rfl shapeCasts_S1x128x128_S128x128,
    -- the means times that matrix, added to the layer's running sum
    binary main_v35 main_v37 main_v38 (fun l r => Host.dotGeneral dot_S100000x128_S128x128_S100000x128_1_0_0_1_n_n none l r),
    binary main_v12 main_v38 main_v39 addf,
    -- relation 1: which edges carry it (the edge types compared with 1), as a column
    nullary main_c_6 (constantI S_ 32 1#32),
    unary main_c_6 main_v40 (broadcastInDim S800000 ![] bcast_S_S800000),
    binary main_arg2 main_v40 main_v41 (cmpi .eq),
    unary main_v41 main_v42 (broadcastInDim S800000x1 ![0] bcast_S800000_S800000x1_0),
    -- the gathered rows of those edges, zero on every other edge (the selection's function, over call 2's buffers:
    -- the zero converted to its own type, the mask broadcast across each row, the zero broadcast, the selection)
    nullary main_cst_7 (constant S_ .f32 0x00000000#32),
    TRef.unary call2_arg2 main_call2.v0 id,
    TRef.unary call2_arg0 main_call2.v1 (broadcastInDim S800000x128 ![0, 1] bcast_S800000x1_S800000x128_0_1),
    TRef.unary main_call2.v0 main_call2.v2 (broadcastInDim S800000x128 ![] bcast_S_S800000x128),
    TRef.ternary main_call2.v1 call2_arg1 main_call2.v2 main_call2.v3 select,
    -- their sum into each edge's destination node: scatter-add into an array of zeros
    nullary main_cst_8 (constant S_ .f32 0x00000000#32),
    unary main_cst_8 main_v44 (broadcastInDim S100000x128 ![] bcast_S_S100000x128),
    unary main_v3 main_v45 (broadcastInDim S800000x1 ![0] bcast_S800000_S800000x1_0),
    ternary main_v44 main_v45 main_v43 main_v46 (fun x i u => Host.scatterAdd scatter_S100000x128_S800000x1_S800000x128_1_0_0_1 x i u),
    -- the number of such edges entering each node: the mask as 0/1 reals, scatter-added into zeros
    unary main_v41 main_v47 (uitofp .f32),
    nullary main_cst_9 (constant S_ .f32 0x00000000#32),
    unary main_cst_9 main_v48 (broadcastInDim S100000 ![] bcast_S_S100000),
    unary main_v3 main_v49 (broadcastInDim S800000x1 ![0] bcast_S800000_S800000x1_0),
    ternary main_v48 main_v49 main_v47 main_v50 (fun x i u => Host.scatterAdd scatter_S100000_S800000x1_S800000_n_0_0_1 x i u),
    -- that count, at least 1, broadcast across each node's row
    nullary main_cst_10 (constant S_ .f32 0x3F800000#32),
    unary main_cst_10 main_v51 (broadcastInDim S100000 ![] bcast_S_S100000),
    binary main_v50 main_v51 main_v52 maximumf,
    unary main_v52 main_v53 (broadcastInDim S100000x1 ![0] bcast_S100000_S100000x1_0),
    unary main_v53 main_v54 (broadcastInDim S100000x128 ![0, 1] bcast_S100000x1_S100000x128_0_1),
    -- the mean: sum / max(count, 1)
    binary main_v46 main_v54 main_v55 Host.divf,
    -- relation 1's weight matrix out of the stacked weights
    unary main_arg5 main_v56 (extractStridedSlice S1x128x128 ![1, 0, 0] · slices_S2x128x128_S1x128x128_1_0_0),
    reshape main_v56 main_v57 rfl shapeCasts_S1x128x128_S128x128,
    -- the means times that matrix, added to the layer's running sum
    binary main_v55 main_v57 main_v58 (fun l r => Host.dotGeneral dot_S100000x128_S128x128_S100000x128_1_0_0_1_n_n none l r),
    binary main_v39 main_v58 main_v59 addf ]

/-- Stage 3, sixty-nine operations: the second graph layer, the same operations in the same order with the same
    weights, reading the node features from `main_v59` and writing `main_v110`. -/
abbrev opsLayer2 : List (HloOp τ sig (Elt F)) :=
  [ -- the node features times the root weights, plus the bias broadcast over the rows
    binary main_v59 main_arg6 main_v60 (fun l r => Host.dotGeneral dot_S100000x128_S128x128_S100000x128_1_0_0_1_n_n none l r),
    unary main_arg7 main_v61 (broadcastInDim S1x128 ![1] bcast_S128_S1x128_1),
    unary main_v61 main_v62 (broadcastInDim S100000x128 ![0, 1] bcast_S1x128_S100000x128_0_1),
    binary main_v60 main_v62 main_v63 addf,
    -- the edges' sources, a negative one wrapped round by the number of nodes (100000), as a column of indices
    nullary main_c_11 (constantI S_ 32 0#32),
    unary main_c_11 main_v64 (broadcastInDim S800000 ![] bcast_S_S800000),
    binary main_v1 main_v64 main_v65 (cmpi .slt),
    nullary main_c_12 (constantI S_ 32 100000#32),
    unary main_c_12 main_v66 (broadcastInDim S800000 ![] bcast_S_S800000),
    binary main_v1 main_v66 main_v67 addi,
    ternary main_v65 main_v67 main_v1 main_v68 select,
    unary main_v68 main_v69 (broadcastInDim S800000x1 ![0] bcast_S800000_S800000x1_0),
    -- the rows of the node features at those sources: one row per edge
    binary main_v59 main_v69 main_v70 (fun x i => Host.gather gather_S100000x128_S800000x1_S800000x128_1_0_n_n_0_1_1128 x i),
    -- relation 0: which edges carry it (the edge types compared with 0), as a column
    nullary main_c_13 (constantI S_ 32 0#32),
    unary main_c_13 main_v71 (broadcastInDim S800000 ![] bcast_S_S800000),
    binary main_arg2 main_v71 main_v72 (cmpi .eq),
    unary main_v72 main_v73 (broadcastInDim S800000x1 ![0] bcast_S800000_S800000x1_0),
    -- the gathered rows of those edges, zero on every other edge (the selection's function, over call 3's buffers:
    -- the zero converted to its own type, the mask broadcast across each row, the zero broadcast, the selection)
    nullary main_cst_14 (constant S_ .f32 0x00000000#32),
    TRef.unary call3_arg2 main_call3.v0 id,
    TRef.unary call3_arg0 main_call3.v1 (broadcastInDim S800000x128 ![0, 1] bcast_S800000x1_S800000x128_0_1),
    TRef.unary main_call3.v0 main_call3.v2 (broadcastInDim S800000x128 ![] bcast_S_S800000x128),
    TRef.ternary main_call3.v1 call3_arg1 main_call3.v2 main_call3.v3 select,
    -- their sum into each edge's destination node: scatter-add into an array of zeros
    nullary main_cst_15 (constant S_ .f32 0x00000000#32),
    unary main_cst_15 main_v75 (broadcastInDim S100000x128 ![] bcast_S_S100000x128),
    unary main_v3 main_v76 (broadcastInDim S800000x1 ![0] bcast_S800000_S800000x1_0),
    ternary main_v75 main_v76 main_v74 main_v77 (fun x i u => Host.scatterAdd scatter_S100000x128_S800000x1_S800000x128_1_0_0_1 x i u),
    -- the number of such edges entering each node: the mask as 0/1 reals, scatter-added into zeros
    unary main_v72 main_v78 (uitofp .f32),
    nullary main_cst_16 (constant S_ .f32 0x00000000#32),
    unary main_cst_16 main_v79 (broadcastInDim S100000 ![] bcast_S_S100000),
    unary main_v3 main_v80 (broadcastInDim S800000x1 ![0] bcast_S800000_S800000x1_0),
    ternary main_v79 main_v80 main_v78 main_v81 (fun x i u => Host.scatterAdd scatter_S100000_S800000x1_S800000_n_0_0_1 x i u),
    -- that count, at least 1, broadcast across each node's row
    nullary main_cst_17 (constant S_ .f32 0x3F800000#32),
    unary main_cst_17 main_v82 (broadcastInDim S100000 ![] bcast_S_S100000),
    binary main_v81 main_v82 main_v83 maximumf,
    unary main_v83 main_v84 (broadcastInDim S100000x1 ![0] bcast_S100000_S100000x1_0),
    unary main_v84 main_v85 (broadcastInDim S100000x128 ![0, 1] bcast_S100000x1_S100000x128_0_1),
    -- the mean: sum / max(count, 1)
    binary main_v77 main_v85 main_v86 Host.divf,
    -- relation 0's weight matrix out of the stacked weights
    unary main_arg5 main_v87 (extractStridedSlice S1x128x128 ![0, 0, 0] · slices_S2x128x128_S1x128x128_0_0_0),
    reshape main_v87 main_v88 rfl shapeCasts_S1x128x128_S128x128,
    -- the means times that matrix, added to the layer's running sum
    binary main_v86 main_v88 main_v89 (fun l r => Host.dotGeneral dot_S100000x128_S128x128_S100000x128_1_0_0_1_n_n none l r),
    binary main_v63 main_v89 main_v90 addf,
    -- relation 1: which edges carry it (the edge types compared with 1), as a column
    nullary main_c_18 (constantI S_ 32 1#32),
    unary main_c_18 main_v91 (broadcastInDim S800000 ![] bcast_S_S800000),
    binary main_arg2 main_v91 main_v92 (cmpi .eq),
    unary main_v92 main_v93 (broadcastInDim S800000x1 ![0] bcast_S800000_S800000x1_0),
    -- the gathered rows of those edges, zero on every other edge (the selection's function, over call 4's buffers:
    -- the zero converted to its own type, the mask broadcast across each row, the zero broadcast, the selection)
    nullary main_cst_19 (constant S_ .f32 0x00000000#32),
    TRef.unary call4_arg2 main_call4.v0 id,
    TRef.unary call4_arg0 main_call4.v1 (broadcastInDim S800000x128 ![0, 1] bcast_S800000x1_S800000x128_0_1),
    TRef.unary main_call4.v0 main_call4.v2 (broadcastInDim S800000x128 ![] bcast_S_S800000x128),
    TRef.ternary main_call4.v1 call4_arg1 main_call4.v2 main_call4.v3 select,
    -- their sum into each edge's destination node: scatter-add into an array of zeros
    nullary main_cst_20 (constant S_ .f32 0x00000000#32),
    unary main_cst_20 main_v95 (broadcastInDim S100000x128 ![] bcast_S_S100000x128),
    unary main_v3 main_v96 (broadcastInDim S800000x1 ![0] bcast_S800000_S800000x1_0),
    ternary main_v95 main_v96 main_v94 main_v97 (fun x i u => Host.scatterAdd scatter_S100000x128_S800000x1_S800000x128_1_0_0_1 x i u),
    -- the number of such edges entering each node: the mask as 0/1 reals, scatter-added into zeros
    unary main_v92 main_v98 (uitofp .f32),
    nullary main_cst_21 (constant S_ .f32 0x00000000#32),
    unary main_cst_21 main_v99 (broadcastInDim S100000 ![] bcast_S_S100000),
    unary main_v3 main_v100 (broadcastInDim S800000x1 ![0] bcast_S800000_S800000x1_0),
    ternary main_v99 main_v100 main_v98 main_v101 (fun x i u => Host.scatterAdd scatter_S100000_S800000x1_S800000_n_0_0_1 x i u),
    -- that count, at least 1, broadcast across each node's row
    nullary main_cst_22 (constant S_ .f32 0x3F800000#32),
    unary main_cst_22 main_v102 (broadcastInDim S100000 ![] bcast_S_S100000),
    binary main_v101 main_v102 main_v103 maximumf,
    unary main_v103 main_v104 (broadcastInDim S100000x1 ![0] bcast_S100000_S100000x1_0),
    unary main_v104 main_v105 (broadcastInDim S100000x128 ![0, 1] bcast_S100000x1_S100000x128_0_1),
    -- the mean: sum / max(count, 1)
    binary main_v97 main_v105 main_v106 Host.divf,
    -- relation 1's weight matrix out of the stacked weights
    unary main_arg5 main_v107 (extractStridedSlice S1x128x128 ![1, 0, 0] · slices_S2x128x128_S1x128x128_1_0_0),
    reshape main_v107 main_v108 rfl shapeCasts_S1x128x128_S128x128,
    -- the means times that matrix, added to the layer's running sum
    binary main_v106 main_v108 main_v109 (fun l r => Host.dotGeneral dot_S100000x128_S128x128_S100000x128_1_0_0_1_n_n none l r),
    binary main_v90 main_v109 main_v110 addf ]

/-- Stage 4, four operations: the output layer `x · W_out + b_out`, from `main_v110` to the result `main_v114`. -/
abbrev opsOutput : List (HloOp τ sig (Elt F)) :=
  [ -- the node features times the output weights, plus the bias broadcast over the rows
    binary main_v110 main_arg8 main_v111 (fun l r => Host.dotGeneral dot_S100000x128_S128x3_S100000x3_1_0_0_1_n_n none l r),
    unary main_arg9 main_v112 (broadcastInDim S1x3 ![1] bcast_S3_S1x3_1),
    unary main_v112 main_v113 (broadcastInDim S100000x3 ![0, 1] bcast_S1x3_S100000x3_0_1),
    binary main_v111 main_v113 main_v114 addf ]

/-- The whole program: the four stages in order. -/
abbrev ops : List (HloOp τ sig (Elt F)) := opsInput ++ opsLayer1 ++ opsLayer2 ++ opsOutput

-- 158 sequencing steps re-associated: the rewriting recurses once per statement
set_option maxRecDepth 4096 in
set_option maxHeartbeats 400000 in
/-- The program is that list run in order: with the three windows of its text and the three functions' bodies unfolded
    at their calls, both sides are one chain of single-operation steps once sequencing is re-associated to the right. -/
theorem main_eq (c : Dev nD) : main (F := F) c = seq ops := by
  simp only [main, main_part0, main_part1, main_part2, fn_leaky_relu.body, fn_where.body, fn_where_0.body, seq,
    bind_assoc, pure_bind]
  rfl

/-! ### The side conditions of running a list

The signature scopes no buffer and no semaphore to a region (the program holds tensor values only), and every
operation touches buffers of the tensor core only: each builder's buffers are its operands' and its result's. -/

theorem scopedRefs_eq : (Finset.univ.filter fun b : Ref sig .tc => b.isScoped) = ∅ := by decide
theorem scopedSems_eq : (Finset.univ.filter fun sm : SemLoc sig => sm.isScoped .tc) = ∅ := by decide

theorem opsInput_sub : (opsInput : List (HloOp τ sig (Elt F))).Forall fun op => op.bufs ⊆ tcRefs τ sig :=
  ⟨unary_bufs_sub .., reshape_bufs_sub .., unary_bufs_sub .., reshape_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub ..⟩
theorem opsLayer1_sub : (opsLayer1 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., unary_bufs_sub .., nullary_bufs_sub ..,
    unary_bufs_sub .., unary_bufs_sub .., unary_bufs_sub .., ternary_bufs_sub .., nullary_bufs_sub .., unary_bufs_sub ..,
    unary_bufs_sub .., ternary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., unary_bufs_sub .., reshape_bufs_sub .., binary_bufs_sub .., binary_bufs_sub .., nullary_bufs_sub ..,
    unary_bufs_sub .., binary_bufs_sub .., unary_bufs_sub .., nullary_bufs_sub .., unary_bufs_sub .., unary_bufs_sub ..,
    unary_bufs_sub .., ternary_bufs_sub .., nullary_bufs_sub .., unary_bufs_sub .., unary_bufs_sub .., ternary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    reshape_bufs_sub .., binary_bufs_sub .., binary_bufs_sub ..⟩
theorem opsLayer2_sub : (opsLayer2 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., unary_bufs_sub .., nullary_bufs_sub ..,
    unary_bufs_sub .., unary_bufs_sub .., unary_bufs_sub .., ternary_bufs_sub .., nullary_bufs_sub .., unary_bufs_sub ..,
    unary_bufs_sub .., ternary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., unary_bufs_sub .., reshape_bufs_sub .., binary_bufs_sub .., binary_bufs_sub .., nullary_bufs_sub ..,
    unary_bufs_sub .., binary_bufs_sub .., unary_bufs_sub .., nullary_bufs_sub .., unary_bufs_sub .., unary_bufs_sub ..,
    unary_bufs_sub .., ternary_bufs_sub .., nullary_bufs_sub .., unary_bufs_sub .., unary_bufs_sub .., ternary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    reshape_bufs_sub .., binary_bufs_sub .., binary_bufs_sub ..⟩
theorem opsOutput_sub : (opsOutput : List (HloOp τ sig (Elt F))).Forall fun op => op.bufs ⊆ tcRefs τ sig :=
  ⟨binary_bufs_sub .., unary_bufs_sub .., unary_bufs_sub .., binary_bufs_sub ..⟩

theorem ops_sub : (ops : List (HloOp τ sig (Elt F))).Forall fun op => op.bufs ⊆ tcRefs τ sig :=
  List.forall_append.mpr ⟨List.forall_append.mpr ⟨List.forall_append.mpr ⟨opsInput_sub, opsLayer1_sub⟩, opsLayer2_sub⟩,
    opsOutput_sub⟩

/-! ## What the stages compute

From here on the float values are the extended reals, and `V` is any assignment of contents to the buffers: the
contents a stage starts from. -/

local notation "𝕍" => Valuation τ sig (Elt Ideal)

/-- Running two lists one after the other: the second folds over what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The ten arguments. No operation writes them. -/
abbrev args : List (Ref sig .tc) :=
  [main_arg0, main_arg1, main_arg2, main_arg3, main_arg4, main_arg5, main_arg6, main_arg7, main_arg8, main_arg9]

/-! ### Stage 1 -/

set_option maxHeartbeats 400000 in
/-- The input layer's result: substituting each operation's function for the buffer it wrote turns the contents of
    `main_v8` into the composed term, which is `inputLayer` of the features, the input weights and the input bias,
    spelled out.  (The typed references' transports are the identity at these literal references.) -/
theorem input_result (V : 𝕍) :
    after (opsInput (F := Ideal)) V (main_v8 : DevRef τ sig)
      = inputLayer (V (main_arg0 : DevRef τ sig)) (V (main_arg3 : DevRef τ sig)) (V (main_arg4 : DevRef τ sig)) := by
  after_results_simp
  rfl

set_option maxHeartbeats 400000 in
/-- The edges' sources: row 0 of the edge list. -/
theorem input_src (V : 𝕍) :
    after (opsInput (F := Ideal)) V (main_v1 : DevRef τ sig) = edgeEnds0 (V (main_arg1 : DevRef τ sig)) := by
  after_results_simp
  rfl

set_option maxHeartbeats 400000 in
/-- The edges' destinations: row 1 of the edge list. -/
theorem input_dst (V : 𝕍) :
    after (opsInput (F := Ideal)) V (main_v3 : DevRef τ sig) = edgeEnds1 (V (main_arg1 : DevRef τ sig)) := by
  after_results_simp
  rfl

-- ten buffers, each followed through the sixteen operations
set_option maxHeartbeats 1000000 in
/-- Stage 1 writes no argument: each of its sixteen result buffers is a different reference. -/
theorem input_keeps (V : 𝕍) :
    ∀ r ∈ args, after (opsInput (F := Ideal)) V (r : DevRef τ sig) = V (r : DevRef τ sig) := by
  intro r hr
  simp only [args, List.mem_cons, List.mem_nil_iff, or_false] at hr
  rcases hr with rfl | rfl | rfl | rfl | rfl | rfl | rfl | rfl | rfl | rfl
  all_goals after_results_simp

/-! ### Stages 2 and 3: a graph layer

The two layers are the same sixty-nine operations over different buffers, so the two computations are the same
substitution.  The gathered rows (`main_v19`, `main_v70`) are computed once and read by both relations' masked
selections: in the composed term they appear once per relation, as `graphLayer` writes them. -/

-- sixty-nine substitutions, the shared subterms visited once
set_option maxHeartbeats 1000000 in
/-- The first graph layer's result, as `graphLayer` of the node features it found in `main_v8`, the edge ends it
    found in `main_v1` and `main_v3`, and the edge types, root weights, relation weights and bias arguments. -/
theorem layer1_result (V : 𝕍) :
    after (opsLayer1 (F := Ideal)) V (main_v59 : DevRef τ sig)
      = graphLayer (V (main_v8 : DevRef τ sig)) (V (main_v1 : DevRef τ sig)) (V (main_v3 : DevRef τ sig)) (V (main_arg2 : DevRef τ sig))
          (V (main_arg6 : DevRef τ sig)) (V (main_arg5 : DevRef τ sig)) (V (main_arg7 : DevRef τ sig)) := by
  after_results_simp
  rfl

-- twelve buffers, each followed through the sixty-nine operations
set_option maxHeartbeats 4000000 in
/-- The first graph layer writes neither an argument nor an edge-end vector. -/
theorem layer1_keeps (V : 𝕍) :
    ∀ r ∈ main_v1 :: main_v3 :: args, after (opsLayer1 (F := Ideal)) V (r : DevRef τ sig) = V (r : DevRef τ sig) := by
  intro r hr
  simp only [args, List.mem_cons, List.mem_nil_iff, or_false] at hr
  rcases hr with rfl | rfl | rfl | rfl | rfl | rfl | rfl | rfl | rfl | rfl | rfl | rfl
  all_goals after_results_simp

-- as for the first layer
set_option maxHeartbeats 1000000 in
/-- The second graph layer's result: the same function of the node features it found in `main_v59`. -/
theorem layer2_result (V : 𝕍) :
    after (opsLayer2 (F := Ideal)) V (main_v110 : DevRef τ sig)
      = graphLayer (V (main_v59 : DevRef τ sig)) (V (main_v1 : DevRef τ sig)) (V (main_v3 : DevRef τ sig)) (V (main_arg2 : DevRef τ sig))
          (V (main_arg6 : DevRef τ sig)) (V (main_arg5 : DevRef τ sig)) (V (main_arg7 : DevRef τ sig)) := by
  after_results_simp
  rfl

-- ten buffers, each followed through the sixty-nine operations
set_option maxHeartbeats 4000000 in
/-- The second graph layer writes no argument. -/
theorem layer2_keeps (V : 𝕍) :
    ∀ r ∈ args, after (opsLayer2 (F := Ideal)) V (r : DevRef τ sig) = V (r : DevRef τ sig) := by
  intro r hr
  simp only [args, List.mem_cons, List.mem_nil_iff, or_false] at hr
  rcases hr with rfl | rfl | rfl | rfl | rfl | rfl | rfl | rfl | rfl | rfl
  all_goals after_results_simp

/-! ### Stage 4 -/

set_option maxHeartbeats 400000 in
/-- The output layer's result, as `outputLayer` of the node features it found in `main_v110`. -/
theorem output_result (V : 𝕍) :
    after (opsOutput (F := Ideal)) V (main_v114 : DevRef τ sig)
      = outputLayer (V (main_v110 : DevRef τ sig)) (V (main_arg8 : DevRef τ sig)) (V (main_arg9 : DevRef τ sig)) := by
  after_results_simp
  rfl

set_option maxHeartbeats 400000 in
/-- The output layer writes no argument. -/
theorem output_keeps (V : 𝕍) :
    ∀ r ∈ args, after (opsOutput (F := Ideal)) V (r : DevRef τ sig) = V (r : DevRef τ sig) := by
  intro r hr
  simp only [args, List.mem_cons, List.mem_nil_iff, or_false] at hr
  rcases hr with rfl | rfl | rfl | rfl | rfl | rfl | rfl | rfl | rfl | rfl
  all_goals after_results_simp

/-! ## The whole program -/

/-- No stage writes an argument, so the program leaves each at its launch contents. -/
theorem args_kept (V : 𝕍) :
    ∀ r ∈ args, after (ops (F := Ideal)) V (r : DevRef τ sig) = V (r : DevRef τ sig) := by
  intro r hr
  simp only [ops, after_append]
  rw [output_keeps _ r hr, layer2_keeps _ r hr, layer1_keeps _ r (List.mem_cons_of_mem _ (List.mem_cons_of_mem _ hr)),
    input_keeps _ r hr]

/-- The result buffer after the whole program: the stages' results substituted into one another, outermost first.
    The output layer reads the second graph layer's features; that layer reads the first's, and the edge ends and
    arguments as the first layer left them, which is as stage 1 left them; stage 1 made the features and the edge ends
    from the arguments.  What remains is `network` unfolded once. -/
theorem result_eq (V : 𝕍) :
    after (ops (F := Ideal)) V (main_v114 : DevRef τ sig)
      = network (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) (V (main_arg9 : DevRef τ sig)) := by
  simp only [ops, after_append]
  rw [output_result, layer2_result,
    layer2_keeps _ main_arg8 (by decide), layer2_keeps _ main_arg9 (by decide),
    layer1_result,
    layer1_keeps _ main_v1 (by decide), layer1_keeps _ main_v3 (by decide), layer1_keeps _ main_arg2 (by decide),
    layer1_keeps _ main_arg5 (by decide), layer1_keeps _ main_arg6 (by decide), layer1_keeps _ main_arg7 (by decide),
    layer1_keeps _ main_arg8 (by decide), layer1_keeps _ main_arg9 (by decide),
    input_result, input_src, input_dst,
    input_keeps _ main_arg2 (by decide), input_keeps _ main_arg5 (by decide), input_keeps _ main_arg6 (by decide),
    input_keeps _ main_arg7 (by decide), input_keeps _ main_arg8 (by decide), input_keeps _ main_arg9 (by decide)]
  rfl

/-- On every device, from any memory with zero counters: every weakly fair execution of the reference program
    terminates with its result buffer at `network` of the arguments' launch contents, and the arguments unchanged.
    Running the list gives each buffer's final contents as the fold over the launch contents; the two facts above
    read the fold at the result and at the arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v114)
          = network (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6))
              (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (defs (F := Ideal)) _ _).mono
    (fun _ h c => ⟨(h c main_v114).trans (result_eq _),
      (h c main_arg0).trans (args_kept _ main_arg0 (by decide)),
      (h c main_arg1).trans (args_kept _ main_arg1 (by decide)),
      (h c main_arg2).trans (args_kept _ main_arg2 (by decide)),
      (h c main_arg3).trans (args_kept _ main_arg3 (by decide)),
      (h c main_arg4).trans (args_kept _ main_arg4 (by decide)),
      (h c main_arg5).trans (args_kept _ main_arg5 (by decide)),
      (h c main_arg6).trans (args_kept _ main_arg6 (by decide)),
      (h c main_arg7).trans (args_kept _ main_arg7 (by decide)),
      (h c main_arg8).trans (args_kept _ main_arg8 (by decide)),
      (h c main_arg9).trans (args_kept _ main_arg9 (by decide))⟩)
    (run_seq scopedRefs_eq scopedSems_eq defs main (fun _ => ops) main_eq (fun _ => ops_sub) m ρ)

end Cert.Rgcn.Reference

end
-- ==== Proof.RefValue.lean ====
/-
  The reference's composed term IS the specification, entry by entry.

  Three things are read at an entry: a matrix product is the row-against-column sum; a bias vector broadcast over
  the rows is the bias entry of the column; the rectifier's selection on `y ≥ 0` is the specification's own case
  split.  The neighbour means are the same chain of host operations on both sides and are never opened.  The one
  algebraic step is in the graph layer: the reference adds the bias right after the root product and the
  specification adds it last, which is commutativity and associativity of the sum of four extended reals —
  true at the infinities too, so the inputs' finiteness is never used.
-/
import proofs.«120295_j19387482374387_1_alg».proof.Proof.RefTerm
import proofs.«120295_j19387482374387_1_alg».proof.Proof.Spec
import Idealize.ShloMosaic.Lib.StackMember
import Idealize.ShloMosaic.Lib.IdealHost
import Idealize.ShloMosaic.Lib.Pipeline.Value
import Idealize.ShloMosaic.Lib.ValueIdx
import Idealize.ShloMosaic.PureOps.Ideal.Laws

noncomputable section

namespace Cert.Rgcn.Reference

open Idealize.ShloMosaic Idealize.ShloMosaic.ValueIdx Cert.ReferenceIdeal Cert.ReferenceIdeal.Facts₀

/-! ## A matrix product at an entry -/

/-- The features against the input weights, at entry `i`: row `i 0` against column `i 1`. -/
theorem dotIn_apply (A : FVec Ideal S100000x16 .f32) (B : FVec Ideal S16x128 .f32) (i : S100000x128.Idx) :
    Host.dotGeneral dot_S100000x16_S16x128_S100000x128_1_0_0_1_n_n none A B i
      = Cert.Rgcn.rowDot (N := 100000) (K := 16) (M := 128) A B (i 0) (i 1) := by
  obtain ⟨a, b, rfl⟩ : ∃ (a : Fin 100000) (b : Fin 128), i = ix2 a b := ⟨i 0, i 1, eq_ix2 i⟩
  exact StackMember.dotGeneral_plain_apply (m := 100000) (n := 128) (k := 16) none A B a b

/-- A node array against a 128 × 128 weight matrix, at entry `i`. -/
theorem dotHid_apply (A : FVec Ideal S100000x128 .f32) (B : FVec Ideal S128x128 .f32) (i : S100000x128.Idx) :
    Host.dotGeneral dot_S100000x128_S128x128_S100000x128_1_0_0_1_n_n none A B i
      = Cert.Rgcn.rowDot (N := 100000) (K := 128) (M := 128) A B (i 0) (i 1) := by
  obtain ⟨a, b, rfl⟩ : ∃ (a : Fin 100000) (b : Fin 128), i = ix2 a b := ⟨i 0, i 1, eq_ix2 i⟩
  exact StackMember.dotGeneral_plain_apply (m := 100000) (n := 128) (k := 128) none A B a b

/-- The node array against the output weights, at entry `i`. -/
theorem dotOut_apply (A : FVec Ideal S100000x128 .f32) (B : FVec Ideal S128x3 .f32) (i : S100000x3.Idx) :
    Host.dotGeneral dot_S100000x128_S128x3_S100000x3_1_0_0_1_n_n none A B i
      = Cert.Rgcn.rowDot (N := 100000) (K := 128) (M := 3) A B (i 0) (i 1) := by
  obtain ⟨a, b, rfl⟩ : ∃ (a : Fin 100000) (b : Fin 3), i = ix2 a b := ⟨i 0, i 1, eq_ix2 i⟩
  exact StackMember.dotGeneral_plain_apply (m := 100000) (n := 3) (k := 128) none A B a b

/-! ## A bias broadcast over the rows, at an entry -/

/-- The 128-entry bias broadcast over the rows reads, at entry `i`, the bias of column `i 1`. -/
theorem biasRows_apply (b : FVec Ideal S128 .f32) (i : S100000x128.Idx) :
    biasRows b i = Cert.Rgcn.biasRow b (ix2 (n0 := 1) (n1 := 128) 0 (i 1)) := by
  unfold biasRows
  refine (broadcastInDim_apply _ _ _ i (ix2 (n0 := 1) (n1 := 128) 0 (i 1)) ?_).trans ?_
  · intro a
    match a with
    | ⟨0, _⟩ => show (0 : ℕ) = if (1 : ℕ) = 1 then 0 else _; rw [if_pos rfl]
    | ⟨1, _⟩ => show (i 1).val = if (128 : ℕ) = 1 then 0 else (i 1).val; rw [if_neg (by decide)]
  · refine broadcastInDim_apply _ _ _ _ (ix1 (n := 128) (i 1)) ?_
    intro a
    match a with
    | ⟨0, _⟩ => show (i 1).val = if (128 : ℕ) = 1 then 0 else (i 1).val; rw [if_neg (by decide)]

/-- The 3-entry bias broadcast over the rows reads, at entry `i`, the bias of column `i 1`. -/
theorem biasOut_apply (b : FVec Ideal S3 .f32) (i : S100000x3.Idx) :
    broadcastInDim S100000x3 ![0, 1] bcast_S1x3_S100000x3_0_1 (broadcastInDim S1x3 ![1] bcast_S3_S1x3_1 b) i
      = Cert.Rgcn.biasRow b (ix2 (n0 := 1) (n1 := 3) 0 (i 1)) := by
  refine (broadcastInDim_apply _ _ _ i (ix2 (n0 := 1) (n1 := 3) 0 (i 1)) ?_).trans ?_
  · intro a
    match a with
    | ⟨0, _⟩ => show (0 : ℕ) = if (1 : ℕ) = 1 then 0 else _; rw [if_pos rfl]
    | ⟨1, _⟩ => show (i 1).val = if (3 : ℕ) = 1 then 0 else (i 1).val; rw [if_neg (by decide)]
  · refine broadcastInDim_apply _ _ _ _ (ix1 (n := 3) (i 1)) ?_
    intro a
    match a with
    | ⟨0, _⟩ => show (i 1).val = if (3 : ℕ) = 1 then 0 else (i 1).val; rw [if_neg (by decide)]

/-! ## The rectifier at an entry -/

/-- The selection on `y ≥ 0` between `y` and `a · y` is the specification's rectifier. -/
theorem leakyRelu_apply (x : FVec Ideal S100000x128 .f32) (i : S100000x128.Idx) :
    leakyRelu x (constant (F := Ideal) S_ .f32 0x3C23D70A#32) i = Cert.Rgcn.leaky (x i) := by
  unfold leakyRelu Cert.Rgcn.leaky Cert.Rgcn.slope
  rw [select_apply, cmpf_apply, mulf_apply, broadcastInDim_scalar_apply, broadcastInDim_scalar_apply]
  show Scalar.select (BitVec.ofBool (decide (Ideal.ofBits .f32 0x00000000#32 ≤ x i))) (x i)
      (Ideal.ofBits .f32 0x3C23D70A#32 * x i) = _
  rw [Ideal.ofBits_zero_f32]
  by_cases h : (0 : EReal) ≤ x i
  · rw [decide_eq_true h, if_pos h]; exact select_one _ _
  · rw [decide_eq_false h, if_neg h]; exact select_zero _ _

/-! ## The shared host chains: the same operations on both sides -/

theorem edgeEnds0_eq (index : IVec S2x800000 32) : edgeEnds0 index = Cert.Rgcn.edgeEnds0 index := rfl
theorem edgeEnds1_eq (index : IVec S2x800000 32) : edgeEnds1 index = Cert.Rgcn.edgeEnds1 index := rfl
theorem relWeight0_eq (wrel : FVec Ideal S2x128x128 .f32) : relWeight0 wrel = Cert.Rgcn.relWeight0 wrel := rfl
theorem relWeight1_eq (wrel : FVec Ideal S2x128x128 .f32) : relWeight1 wrel = Cert.Rgcn.relWeight1 wrel := rfl

/-- The neighbour means of relation `r`: gather, mask, scatter-add and count, divide — operation for operation the
    specification's chain. -/
theorem relMean_eq (r : BitVec 32) (x : FVec Ideal S100000x128 .f32) (src dst etype : IVec S800000 32) :
    relMeanOf r (gatherRows x src) dst etype = Cert.Rgcn.relMean r x src dst etype := rfl

/-! ## The layers -/

/-- The reference's input layer is the specification's. -/
theorem inputLayer_eq (feat : FVec Ideal S100000x16 .f32) (w : FVec Ideal S16x128 .f32) (b : FVec Ideal S128 .f32) :
    Cert.Rgcn.Reference.inputLayer feat w b = Cert.Rgcn.inputLayer feat w (Cert.Rgcn.biasRow b) := by
  funext i
  unfold Cert.Rgcn.Reference.inputLayer Cert.Rgcn.inputLayer
  rw [leakyRelu_apply, addf_apply, dotIn_apply, biasRows_apply]

/-- The reference's graph layer is the specification's: the reference sums root, bias, relation 0, relation 1 in
    that order and the specification root, relation 0, relation 1, bias; moving the bias to the end is the
    commutativity of the sum, applied twice. -/
theorem graphLayer_eq (x : FVec Ideal S100000x128 .f32) (src dst etype : IVec S800000 32)
    (wroot : FVec Ideal S128x128 .f32) (wrel : FVec Ideal S2x128x128 .f32) (b : FVec Ideal S128 .f32) :
    Cert.Rgcn.Reference.graphLayer x src dst etype wroot wrel b
      = Cert.Rgcn.graphLayer x src dst etype wroot (Cert.Rgcn.relWeight0 wrel) (Cert.Rgcn.relWeight1 wrel)
          (Cert.Rgcn.biasRow b) := by
  funext i
  unfold Cert.Rgcn.Reference.graphLayer Cert.Rgcn.graphLayer Cert.Rgcn.combineLayer
  rw [addf_apply, addf_apply, addf_apply, dotHid_apply, dotHid_apply, dotHid_apply, biasRows_apply,
    relMean_eq, relMean_eq, relWeight0_eq, relWeight1_eq]
  rw [add_right_comm _ (Cert.Rgcn.biasRow b _) _, add_right_comm _ (Cert.Rgcn.biasRow b _) _]

/-- The reference's output layer is the specification's. -/
theorem outputLayer_eq (x : FVec Ideal S100000x128 .f32) (w : FVec Ideal S128x3 .f32) (b : FVec Ideal S3 .f32) :
    Cert.Rgcn.Reference.outputLayer x w b = Cert.Rgcn.outputLayer x w (Cert.Rgcn.biasRow b) := by
  funext i
  unfold Cert.Rgcn.Reference.outputLayer Cert.Rgcn.outputLayer
  rw [addf_apply, dotOut_apply, biasOut_apply]

/-! ## The network -/

/-- The reference's result term is the specification's network of the same arguments. -/
theorem network_eq (feat : FVec Ideal S100000x16 .f32) (index : IVec S2x800000 32) (etype : IVec S800000 32)
    (wIn : FVec Ideal S16x128 .f32) (bIn : FVec Ideal S128 .f32) (wRel : FVec Ideal S2x128x128 .f32)
    (wRoot : FVec Ideal S128x128 .f32) (bGraph : FVec Ideal S128 .f32) (wOut : FVec Ideal S128x3 .f32)
    (bOut : FVec Ideal S3 .f32) :
    Cert.Rgcn.Reference.network feat index etype wIn bIn wRel wRoot bGraph wOut bOut
      = Cert.Rgcn.network feat index etype wIn bIn wRel wRoot bGraph wOut bOut := by
  unfold Cert.Rgcn.Reference.network Cert.Rgcn.network
  rw [outputLayer_eq, graphLayer_eq, graphLayer_eq, inputLayer_eq, edgeEnds0_eq, edgeEnds1_eq]

end Cert.Rgcn.Reference

end
-- ==== Proof.lean ====
/-
  The certificate: the kernel program and the reference compute the same network.

  The kernel program is four launches — the input layer, the graph layer twice, the output layer — among host
  stretches that slice the edge list and the relation weights and form the per-relation neighbour means; the
  reference is the same network written with whole-array matrix products.  Over the extended reals each launch
  leaves in its output array the layer's whole-array function of the arrays it reads (each grid point writes
  the rows of its block, and the blocks tile the array), the host stretches between the launches are operation for
  operation the reference's, and the reference's own term is that same network: a matrix product is the
  row-against-column sum on both sides, the rectifier's two spellings (`y > 0` in the kernel, `y ≥ 0` in the
  reference) agree at `y = 0` because the other branch is `slope · 0 = 0`, and the graph layer's four summands are
  added in two different orders.  None of these steps needs the inputs to be finite.

  The three frames are the generated frame runs (the reference's with its result dropped); the kernel's
  idealization rewrote nothing, so `preserves` asks nothing.
-/
import proofs.«120295_j19387482374387_1_alg».proof.Defs
import proofs.«120295_j19387482374387_1_alg».proof.Proof.Gen.Kernel.Frame
import proofs.«120295_j19387482374387_1_alg».proof.Proof.Gen.KernelIdeal.Frame
import proofs.«120295_j19387482374387_1_alg».proof.Proof.Gen.Pre_finite_inputs
import proofs.«120295_j19387482374387_1_alg».proof.Proof.KernelRun
import proofs.«120295_j19387482374387_1_alg».proof.Proof.KernelValue
import proofs.«120295_j19387482374387_1_alg».proof.Proof.ReferenceRun
import proofs.«120295_j19387482374387_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, with the result's value dropped. -/
theorem frame_referenceIdeal : Cert.frame_ReferenceIdeal := fun m ρ _ =>
  (θ_run Cert.ReferenceIdeal.defs _ _).mono (fun _ h c => (h c).2) (Cert.Rgcn.Reference.run m ρ)

/-- The idealization rewrote no operation. -/
theorem preserves : Cert.preserves_Kernel_KernelIdeal := trivial

/-- From memories that agree on the ten arguments both programs end with the result array at the network of those
    arguments: the kernel program by its run and the four layers' closed forms, the reference by its run and the
    reading of its term. -/
theorem algebraic : Cert.algebraic_KernelIdeal_ReferenceIdeal := by
  intro m ρ m' ρ' _ hagree
  refine ⟨fun c => Cert.Rgcn.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Rgcn.Kernel.result_eq m ρ c), (h c).2⟩)
      (Cert.Rgcn.Kernel.run_result (F := Ideal) m ρ)
  · refine (θ_run Cert.ReferenceIdeal.defs _ _).mono (fun r h c => ⟨(h c).1.trans ?_, (h c).2⟩)
      (Cert.Rgcn.Reference.run m' ρ')
    obtain ⟨e0, e1, e2, e3, e4, e5, e6, e7, e8, e9⟩ := hagree c
    rw [Cert.Rgcn.Reference.network_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
